-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S128x1 .f32) (main_arg10 : FVec F S1 .f32) (main_v33 : IVec S_ 1) : IVec S_ 1 :=
  let main_v34 : FVec F S128x1 .f32 := Host.absf main_arg9
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x1 .f32) (main_arg10 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x1 .f32) (main_arg10 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S1x128 : Shape := ⟨2, ![1, 128]⟩
abbrev S5000x128 : Shape := ⟨2, ![5000, 128]⟩
abbrev S5000x1 : Shape := ⟨2, ![5000, 1]⟩
abbrev S800000x128 : Shape := ⟨2, ![800000, 128]⟩
abbrev S512x128 : Shape := ⟨2, ![512, 128]⟩
abbrev S1x1 : Shape := ⟨2, ![1, 1]⟩
abbrev S512x1 : Shape := ⟨2, ![512, 1]⟩

abbrev nBuf : Space → Nat
  | .hbm => 116
  | .vmem => 34
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x1, .f32⟩
  | .hbm, ⟨10, _⟩ => ⟨S1, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000, .f32⟩
  | .hbm, ⟨45, _⟩ => ⟨S800000, .f32⟩
  | .hbm, ⟨46, _⟩ => ⟨S800000x1, .f32⟩
  | .hbm, ⟨47, _⟩ => ⟨S1x128, .f32⟩
  | .hbm, ⟨48, _⟩ => ⟨S50000x128, .f32⟩
  | .hbm, ⟨49, _⟩ => ⟨S50000x128, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x128, .f32⟩
  | .hbm, ⟨59, _⟩ => ⟨S800000x128, .f32⟩
  | .hbm, ⟨60, _⟩ => ⟨S800000x128, .f32⟩
  | .hbm, ⟨61, _⟩ => ⟨S_, .f32⟩
  | .hbm, ⟨62, _⟩ => ⟨S50000x128, .f32⟩
  | .hbm, ⟨63, _⟩ => ⟨S800000x1, .i32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S1x128, .f32⟩
  | .hbm, ⟨70, _⟩ => ⟨S50000x128, .f32⟩
  | .hbm, ⟨71, _⟩ => ⟨S50000x128, .f32⟩
  | .hbm, ⟨72, _⟩ => ⟨S_, .i32⟩
  | .hbm, ⟨73, _⟩ => ⟨S800000, .i32⟩
  | .hbm, ⟨74, _⟩ => ⟨S800000, .i1⟩
  | .hbm, ⟨75, _⟩ => ⟨S_, .i32⟩
  | .hbm, ⟨76, _⟩ => ⟨S800000, .i32⟩
  | .hbm, ⟨77, _⟩ => ⟨S800000, .i32⟩
  | .hbm, ⟨78, _⟩ => ⟨S800000, .i32⟩
  | .hbm, ⟨79, _⟩ => ⟨S800000x1, .i32⟩
  | .hbm, ⟨80, _⟩ => ⟨S800000x128, .f32⟩
  | .hbm, ⟨81, _⟩ => ⟨S800000x128, .f32⟩
  | .hbm, ⟨82, _⟩ => ⟨S800000x128, .f32⟩
  | .hbm, ⟨83, _⟩ => ⟨S_, .f32⟩
  | .hbm, ⟨84, _⟩ => ⟨S50000x128, .f32⟩
  | .hbm, ⟨85, _⟩ => ⟨S800000x1, .i32⟩
  | .hbm, ⟨86, _⟩ => ⟨S50000x128, .f32⟩
  | .hbm, ⟨87, _⟩ => ⟨S50000x128, .f32⟩
  | .hbm, ⟨88, _⟩ => ⟨S_, .f32⟩
  | .hbm, ⟨89, _⟩ => ⟨S50000x128, .f32⟩
  | .hbm, ⟨90, _⟩ => ⟨S50000x128, .f32⟩
  | .hbm, ⟨91, _⟩ => ⟨S1x128, .f32⟩
  | .hbm, ⟨92, _⟩ => ⟨S50000x128, .f32⟩
  | .hbm, ⟨93, _⟩ => ⟨S50000x128, .f32⟩
  | .hbm, ⟨94, _⟩ => ⟨S_, .i32⟩
  | .hbm, ⟨95, _⟩ => ⟨S800000, .i32⟩
  | .hbm, ⟨96, _⟩ => ⟨S800000, .i1⟩
  | .hbm, ⟨97, _⟩ => ⟨S_, .i32⟩
  | .hbm, ⟨98, _⟩ => ⟨S800000, .i32⟩
  | .hbm, ⟨99, _⟩ => ⟨S800000, .i32⟩
  | .hbm, ⟨100, _⟩ => ⟨S800000, .i32⟩
  | .hbm, ⟨101, _⟩ => ⟨S800000x1, .i32⟩
  | .hbm, ⟨102, _⟩ => ⟨S800000x128, .f32⟩
  | .hbm, ⟨103, _⟩ => ⟨S800000x128, .f32⟩
  | .hbm, ⟨104, _⟩ => ⟨S800000x128, .f32⟩
  | .hbm, ⟨105, _⟩ => ⟨S_, .f32⟩
  | .hbm, ⟨106, _⟩ => ⟨S50000x128, .f32⟩
  | .hbm, ⟨107, _⟩ => ⟨S800000x1, .i32⟩
  | .hbm, ⟨108, _⟩ => ⟨S50000x128, .f32⟩
  | .hbm, ⟨109, _⟩ => ⟨S50000x128, .f32⟩
  | .hbm, ⟨110, _⟩ => ⟨S_, .f32⟩
  | .hbm, ⟨111, _⟩ => ⟨S512x128, .f32⟩
  | .hbm, ⟨112, _⟩ => ⟨S50000x1, .i32⟩
  | .hbm, ⟨113, _⟩ => ⟨S512x128, .f32⟩
  | .hbm, ⟨114, _⟩ => ⟨S1x1, .f32⟩
  | .hbm, ⟨115, _⟩ => ⟨S512x1, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x1, .f32⟩
  | .local _ .vmem, ⟨14, _⟩ => ⟨S5000x1, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S5000x1, .f32⟩
  | .local _ .vmem, ⟨24, _⟩ => ⟨S5000x1, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S512x128, .f32⟩
  | .local _ .vmem, ⟨31, _⟩ => ⟨S128x1, .f32⟩
  | .local _ .vmem, ⟨32, _⟩ => ⟨S1x1, .f32⟩
  | .local _ .vmem, ⟨33, _⟩ => ⟨S512x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_3 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30_0 : Ref sig .tc := ⟨.hbm, 48, rfl⟩
abbrev main_v30_1 : Ref sig .tc := ⟨.hbm, 49, rfl⟩
abbrev main_c_5 : Ref sig .tc := ⟨.hbm, 50, rfl⟩
abbrev main_v31 : Ref sig .tc := ⟨.hbm, 51, rfl⟩
abbrev main_v32 : Ref sig .tc := ⟨.hbm, 52, rfl⟩
abbrev main_c_6 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_call0_cst : Ref sig .tc := ⟨.hbm, 66, rfl⟩
abbrev main_call0_v0 : Ref sig .tc := ⟨.hbm, 67, rfl⟩
abbrev main_v44 : Ref sig .tc := ⟨.hbm, 68, rfl⟩
abbrev main_v45 : Ref sig .tc := ⟨.hbm, 69, rfl⟩
abbrev main_v46_0 : Ref sig .tc := ⟨.hbm, 70, rfl⟩
abbrev main_v46_1 : Ref sig .tc := ⟨.hbm, 71, rfl⟩
abbrev main_c_8 : Ref sig .tc := ⟨.hbm, 72, rfl⟩
abbrev main_v47 : Ref sig .tc := ⟨.hbm, 73, rfl⟩
abbrev main_v48 : Ref sig .tc := ⟨.hbm, 74, rfl⟩
abbrev main_c_9 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_10 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_call1_cst : Ref sig .tc := ⟨.hbm, 88, rfl⟩
abbrev main_call1_v0 : Ref sig .tc := ⟨.hbm, 89, rfl⟩
abbrev main_v60 : Ref sig .tc := ⟨.hbm, 90, rfl⟩
abbrev main_v61 : Ref sig .tc := ⟨.hbm, 91, rfl⟩
abbrev main_v62_0 : Ref sig .tc := ⟨.hbm, 92, rfl⟩
abbrev main_v62_1 : Ref sig .tc := ⟨.hbm, 93, rfl⟩
abbrev main_c_11 : Ref sig .tc := ⟨.hbm, 94, rfl⟩
abbrev main_v63 : Ref sig .tc := ⟨.hbm, 95, rfl⟩
abbrev main_v64 : Ref sig .tc := ⟨.hbm, 96, rfl⟩
abbrev main_c_12 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_13 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_cst_14 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg5_1 : Ref sig .tc := ⟨.vmem, 29, rfl⟩
abbrev cc3_stg0_0 : Ref sig .tc := ⟨.vmem, 30, rfl⟩
abbrev cc3_stg1_0 : Ref sig .tc := ⟨.vmem, 31, rfl⟩
abbrev cc3_stg2_0 : Ref sig .tc := ⟨.vmem, 32, rfl⟩
abbrev cc3_stg3_0 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem4_1 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem2_1 : DmaSem sig := 24
abbrev cc2_sem3_0 : DmaSem sig := 25
abbrev cc2_sem4_0 : DmaSem sig := 26
abbrev cc2_sem4_1 : DmaSem sig := 27
abbrev cc2_sem5_0 : DmaSem sig := 28
abbrev cc2_sem5_1 : DmaSem sig := 29
abbrev cc3_sem0_0 : DmaSem sig := 30
abbrev cc3_sem1_0 : DmaSem sig := 31
abbrev cc3_sem2_0 : DmaSem sig := 32
abbrev cc3_sem3_0 : DmaSem sig := 33

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S512x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S128x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S512x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  shapeCasts_S800000_S800000x1 : S800000.ShapeCasts S800000x1
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S5000x128_S5000x128 : S5000x128.ShapeCasts S5000x128
  bcast_S_S512x128 : S_.BroadcastsInDim S512x128 (![] : Fin 0 → Fin S512x128.rank)
  bcast_S50000_S50000x1_0 : S50000.BroadcastsInDim S50000x1 (![0] : Fin 1 → Fin S50000x1.rank)
  shapeCasts_S1_S1x1 : S1.ShapeCasts S1x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S512x128_S50000x1_S50000x128_1_0_0_1_wf : ScatterDims.WF S512x128 S50000x1 S50000x128 [1] [0] [0] 1
  dot_S512x128_S128x1_S512x1_1_0_0_1_n_n_wf : DotDims.WF S512x128 S128x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .f32 = 32 ∨ (Rect.block (s := S50000x128) S5000x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S512x128.size a ≤ S512x128.size a
  hwx3_0 : ∀ i : grid3.Coords, EltTy.bits .f32 = 32 ∨ (Rect.block (s := S512x128) S512x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x1.size a ≤ S128x1.size a
  hwx3_1 : ∀ i : grid3.Coords, EltTy.bits .f32 = 32 ∨ (Rect.block (s := S128x1) S128x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1.size a ≤ S1x1.size a
  hwx3_2 : ∀ i : grid3.Coords, EltTy.bits .f32 = 32 ∨ (Rect.block (s := S1x1) S1x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S512x1.size a ≤ S512x1.size a
  hwx3_3 : ∀ i : grid3.Coords, EltTy.bits .f32 = 32 ∨ (Rect.block (s := S512x1) S512x1.size (cc3_transform_3 i) (hinb3_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v29) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30_0) S5000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v30_1) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46_0) S5000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v46_1) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v60) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v12) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v61) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v62_0) S5000x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v62_1) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v78) S512x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S128x1.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v79) S1x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v80) S512x1.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S512x128 : Shape := ⟨2, ![512, 128]⟩
abbrev S512x1 : Shape := ⟨2, ![512, 1]⟩
abbrev S1x1 : Shape := ⟨2, ![1, 1]⟩

abbrev nBuf : Space → Nat
  | .hbm => 171
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x1, .f32⟩
  | 10 => ⟨S1, .f32⟩
  | 11 => ⟨S1x800000, .i32⟩
  | 12 => ⟨S800000, .i32⟩
  | 13 => ⟨S1x800000, .i32⟩
  | 14 => ⟨S800000, .i32⟩
  | 15 => ⟨S_, .f32⟩
  | 16 => ⟨S800000, .f32⟩
  | 17 => ⟨S_, .f32⟩
  | 18 => ⟨S50000, .f32⟩
  | 19 => ⟨S800000x1, .i32⟩
  | 20 => ⟨S50000, .f32⟩
  | 21 => ⟨S_, .f32⟩
  | 22 => ⟨S50000, .f32⟩
  | 23 => ⟨S50000, .f32⟩
  | 24 => ⟨S50000, .f32⟩
  | 25 => ⟨S50000x128, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000, .f32⟩
  | 44 => ⟨S800000, .f32⟩
  | 45 => ⟨S800000x1, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x128, .f32⟩
  | 55 => ⟨S800000x128, .f32⟩
  | 56 => ⟨S800000x128, .f32⟩
  | 57 => ⟨S_, .f32⟩
  | 58 => ⟨S50000x128, .f32⟩
  | 59 => ⟨S800000x1, .i32⟩
  | 60 => ⟨S50000x128, .f32⟩
  | 61 => ⟨S50000, .f32⟩
  | 62 => ⟨S50000x1, .f32⟩
  | 63 => ⟨S50000x128, .f32⟩
  | 64 => ⟨S50000x128, .f32⟩
  | 65 => ⟨S50000x128, .f32⟩
  | 66 => ⟨S1x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S50000x128, .f32⟩
  | 73 => ⟨S_, .i32⟩
  | 74 => ⟨S800000, .i32⟩
  | 75 => ⟨S800000, .i1⟩
  | 76 => ⟨S_, .i32⟩
  | 77 => ⟨S800000, .i32⟩
  | 78 => ⟨S800000, .i32⟩
  | 79 => ⟨S800000, .i32⟩
  | 80 => ⟨S800000x1, .i32⟩
  | 81 => ⟨S800000, .f32⟩
  | 82 => ⟨S_, .i32⟩
  | 83 => ⟨S800000, .i32⟩
  | 84 => ⟨S800000, .i1⟩
  | 85 => ⟨S_, .i32⟩
  | 86 => ⟨S800000, .i32⟩
  | 87 => ⟨S800000, .i32⟩
  | 88 => ⟨S800000, .i32⟩
  | 89 => ⟨S800000x1, .i32⟩
  | 90 => ⟨S800000, .f32⟩
  | 91 => ⟨S800000, .f32⟩
  | 92 => ⟨S800000x1, .f32⟩
  | 93 => ⟨S_, .i32⟩
  | 94 => ⟨S800000, .i32⟩
  | 95 => ⟨S800000, .i1⟩
  | 96 => ⟨S_, .i32⟩
  | 97 => ⟨S800000, .i32⟩
  | 98 => ⟨S800000, .i32⟩
  | 99 => ⟨S800000, .i32⟩
  | 100 => ⟨S800000x1, .i32⟩
  | 101 => ⟨S800000x128, .f32⟩
  | 102 => ⟨S800000x128, .f32⟩
  | 103 => ⟨S800000x128, .f32⟩
  | 104 => ⟨S_, .f32⟩
  | 105 => ⟨S50000x128, .f32⟩
  | 106 => ⟨S800000x1, .i32⟩
  | 107 => ⟨S50000x128, .f32⟩
  | 108 => ⟨S50000, .f32⟩
  | 109 => ⟨S50000x1, .f32⟩
  | 110 => ⟨S50000x128, .f32⟩
  | 111 => ⟨S50000x128, .f32⟩
  | 112 => ⟨S50000x128, .f32⟩
  | 113 => ⟨S1x128, .f32⟩
  | 114 => ⟨S50000x128, .f32⟩
  | 115 => ⟨S50000x128, .f32⟩
  | 116 => ⟨S_, .f32⟩
  | 117 => ⟨S50000x128, .f32⟩
  | 118 => ⟨S50000x128, .f32⟩
  | 119 => ⟨S50000x128, .f32⟩
  | 120 => ⟨S_, .i32⟩
  | 121 => ⟨S800000, .i32⟩
  | 122 => ⟨S800000, .i1⟩
  | 123 => ⟨S_, .i32⟩
  | 124 => ⟨S800000, .i32⟩
  | 125 => ⟨S800000, .i32⟩
  | 126 => ⟨S800000, .i32⟩
  | 127 => ⟨S800000x1, .i32⟩
  | _ => ⟨S50000x128, .f32⟩

abbrev hbmTy0_1 (i : Nat) : BufTy := match i % 128 with
  | 0 => ⟨S800000, .f32⟩
  | 1 => ⟨S_, .i32⟩
  | 2 => ⟨S800000, .i32⟩
  | 3 => ⟨S800000, .i1⟩
  | 4 => ⟨S_, .i32⟩
  | 5 => ⟨S800000, .i32⟩
  | 6 => ⟨S800000, .i32⟩
  | 7 => ⟨S800000, .i32⟩
  | 8 => ⟨S800000x1, .i32⟩
  | 9 => ⟨S800000, .f32⟩
  | 10 => ⟨S800000, .f32⟩
  | 11 => ⟨S800000x1, .f32⟩
  | 12 => ⟨S_, .i32⟩
  | 13 => ⟨S800000, .i32⟩
  | 14 => ⟨S800000, .i1⟩
  | 15 => ⟨S_, .i32⟩
  | 16 => ⟨S800000, .i32⟩
  | 17 => ⟨S800000, .i32⟩
  | 18 => ⟨S800000, .i32⟩
  | 19 => ⟨S800000x1, .i32⟩
  | 20 => ⟨S800000x128, .f32⟩
  | 21 => ⟨S800000x128, .f32⟩
  | 22 => ⟨S800000x128, .f32⟩
  | 23 => ⟨S_, .f32⟩
  | 24 => ⟨S50000x128, .f32⟩
  | 25 => ⟨S800000x1, .i32⟩
  | 26 => ⟨S50000x128, .f32⟩
  | 27 => ⟨S50000, .f32⟩
  | 28 => ⟨S50000x1, .f32⟩
  | 29 => ⟨S50000x128, .f32⟩
  | 30 => ⟨S50000x128, .f32⟩
  | 31 => ⟨S50000x128, .f32⟩
  | 32 => ⟨S1x128, .f32⟩
  | 33 => ⟨S50000x128, .f32⟩
  | 34 => ⟨S50000x128, .f32⟩
  | 35 => ⟨S_, .f32⟩
  | 36 => ⟨S512x128, .f32⟩
  | 37 => ⟨S50000x1, .i32⟩
  | 38 => ⟨S512x128, .f32⟩
  | 39 => ⟨S512x1, .f32⟩
  | 40 => ⟨S1x1, .f32⟩
  | 41 => ⟨S512x1, .f32⟩
  | 42 => ⟨S512x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call0_cst : Ref sig .tc := ⟨.hbm, 69, rfl⟩
abbrev main_call0_v0 : Ref sig .tc := ⟨.hbm, 70, rfl⟩
abbrev main_v48 : Ref sig .tc := ⟨.hbm, 71, rfl⟩
abbrev main_v49 : Ref sig .tc := ⟨.hbm, 72, rfl⟩
abbrev main_c_8 : Ref sig .tc := ⟨.hbm, 73, rfl⟩
abbrev main_v50 : Ref sig .tc := ⟨.hbm, 74, rfl⟩
abbrev main_v51 : Ref sig .tc := ⟨.hbm, 75, rfl⟩
abbrev main_c_9 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_c_10 : Ref sig .tc := ⟨.hbm, 82, rfl⟩
abbrev main_v57 : Ref sig .tc := ⟨.hbm, 83, rfl⟩
abbrev main_v58 : Ref sig .tc := ⟨.hbm, 84, rfl⟩
abbrev main_c_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_c_12 : Ref sig .tc := ⟨.hbm, 93, rfl⟩
abbrev main_v66 : Ref sig .tc := ⟨.hbm, 94, rfl⟩
abbrev main_v67 : Ref sig .tc := ⟨.hbm, 95, rfl⟩
abbrev main_c_13 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_14 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_call1_cst : Ref sig .tc := ⟨.hbm, 116, rfl⟩
abbrev main_call1_v0 : Ref sig .tc := ⟨.hbm, 117, rfl⟩
abbrev main_v86 : Ref sig .tc := ⟨.hbm, 118, rfl⟩
abbrev main_v87 : Ref sig .tc := ⟨.hbm, 119, rfl⟩
abbrev main_c_15 : Ref sig .tc := ⟨.hbm, 120, rfl⟩
abbrev main_v88 : Ref sig .tc := ⟨.hbm, 121, rfl⟩
abbrev main_v89 : Ref sig .tc := ⟨.hbm, 122, rfl⟩
abbrev main_c_16 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_c_17 : Ref sig .tc := ⟨.hbm, 129, rfl⟩
abbrev main_v95 : Ref sig .tc := ⟨.hbm, 130, rfl⟩
abbrev main_v96 : Ref sig .tc := ⟨.hbm, 131, rfl⟩
abbrev main_c_18 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_c_19 : Ref sig .tc := ⟨.hbm, 140, rfl⟩
abbrev main_v104 : Ref sig .tc := ⟨.hbm, 141, rfl⟩
abbrev main_v105 : Ref sig .tc := ⟨.hbm, 142, rfl⟩
abbrev main_c_20 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_cst_21 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_cst_22 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S512x128 : S_.BroadcastsInDim S512x128 (![] : Fin 0 → Fin S512x128.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S512x128_S50000x1_S50000x128_1_0_0_1_wf : ScatterDims.WF S512x128 S50000x1 S50000x128 [1] [0] [0] 1
  dot_S512x128_S128x1_S512x1_1_0_0_1_n_n_wf : DotDims.WF S512x128 S128x1 S512x1 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

class Facts : Prop extends Facts₀ where

variable [Facts]
-- ==== Proof.KernelRun.lean ====
/-
  The idealized kernel's run with its result named.

  The program is four launches among stretches of host operations: twelve segments.  The contents of the
  TensorCore's buffers at the thirteen boundaries between them are a fold from the launch memory: a stretch applies
  its operations, a launch replaces its arrays by what its write-backs leave and keeps every other buffer.  Launched
  from any memory with zero counters, every weakly fair execution terminates without a fault, and in the final memory
  every buffer that is not scoped to a launch holds the last boundary's contents (`run_all`).  Read at the result
  buffer this names the result; read at an argument it gives the argument back as launched (`run_result`).
-/
import proofs.«137481_j50019189129858_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a final memory is read against on core `c`: every unscoped buffer at the last boundary's contents. -/
abbrev AtLastBoundary (c : Dev nD) (s : MemSt nD τ sig (Elt F)) : Prop :=
  ∀ b ∈ Pipeline.ucRefs τ sig, s.mem (((c : Thread nD τ)).1, b) = W12 m ρ c b

-- the launch theorem's implicit arguments are found by unifying its conclusion with the statement, which takes
-- unfolding plain definitions in a metavariable's type
set_option backward.isDefEq.respectTransparency.types false in
/-- The launch over the twelve segments.  Nothing is owed at launch and no core waits on another, so the level
    assignment is empty; the first thread state is the unscoped buffers at the launch memory beside the generator
    register and an empty debt; each segment is entered from exactly what the one before it left; the last state is
    the unscoped buffers at the last boundary's contents, which a final memory is read against. -/
theorem run_all : θ_run defs (onTc (τ := τ) (main (F := F))) ⟨m, fun _ => 0, ρ⟩
    (fun r => ∀ c : Dev nD, AtLastBoundary m ρ c r.2) :=
  Pipeline.θ_run_regions_kit (pcfgs (F := F)) adm (pdats m ρ) () cellOf_inj emb₁ defs₀ 𝒱₀ L lv m ρ main (segs m ρ)
    (hmain := fun c Q => by rw [main_run m ρ c])
    (hnd := by
      simp only [segs, Pipeline.Seg.pipes_host, Pipeline.Seg.pipes_region, Pipeline.Seg.pipes_nil]
      decide)
    (O₀ := 0) (hL := fun _ _ => rfl) (G := fun _ => iprop(emp))
    (u₀ := initOf (Pipeline.cells cfgs cellOf_inj) (Pipeline.launchToks cfgs cellOf_inj))
    (hu₀ := by
      have hemp : (BI.emp : sProp 𝕄) ⊢ bigSep Finset.univ (fun _ : Dev nD => (BI.emp : sProp 𝕄)) := by
        rw [BI.bigSep_emp_const]
      have hown : (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) := .rfl
      iintro Hown
      imodintro
      isplitl [Hown]
      · iapply hown
        iexact Hown
      · iapply hemp
        iempintro)
    (T₀ := fun c => iprop(StableHlo.held (c : Thread nD τ) (Pipeline.ucRefs τ sig) (W0 m ρ c) ∗ R c)) (Tₙ := Tₙ m ρ)
    (hch := by
      refine ⟨?_, ?_, ?_, ?_, ?_, ?_, ?_, ?_, ?_, ?_, ?_, ?_, ?_⟩ <;> intro c <;> exact .rfl)
    (hinit := by
      refine Pipeline.initEach L lv fun c => ?_
      have hbufs : (unscopedBufs c (fun b => m ((c : Thread nD τ).loc b)) : sProp 𝕄)
          = StableHlo.held (c : Thread nD τ) (Pipeline.ucRefs τ sig) (W0 m ρ c) :=
        Pipeline.unscopedBufs_held c (W0 m ρ c)
      rw [hbufs]
      iintro ⟨⟨Hbufs, -, Hdebt, -, Hreg, -⟩, -⟩
      imodintro
      isplitl [Hbufs]
      · iexact Hbufs
      isplitl [Hreg]
      · iexists _; iexact Hreg
      · iexists ∅; iexact Hdebt)
    (QY := AtLastBoundary m ρ)
    (hfin := fun c s' => by
      iintro ⟨⟨Hbufs, -⟩, Hstate⟩
      unfold StableHlo.held
      imodintro
      iapply (pointsTo_read_all (Pipeline.ucRefs τ sig) (fun b => (((c : Thread nD τ)).1, b)) (W12 m ρ c) s')
      isplitl [Hbufs]
      · iexact Hbufs
      · iexact Hstate)
    (hQ := fun _ h => h)

/-- The result buffer is not scoped to a launch. -/
theorem result_unscoped : Proc.devRef .tc main_v80 ∈ Pipeline.ucRefs τ sig := mem_uc main_v80 (by decide)

/-- Every weakly fair execution ends with the result buffer at the last boundary's contents and the arguments as
    launched: no host operation and no launch writes an argument. -/
theorem run_result : θ_run defs (onTc (τ := τ) (main (F := F))) ⟨m, fun _ => 0, ρ⟩ (fun r => ∀ c : Dev nD,
      r.2.mem ((c.tc : Thread nD τ).loc main_v80) = W12 m ρ c (Proc.devRef .tc main_v80)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨h c _ result_unscoped,
     (h c _ (mem_uc main_arg0 (by decide))).trans (W12_main_arg0 m ρ c),
     (h c _ (mem_uc main_arg1 (by decide))).trans (W12_main_arg1 m ρ c),
     (h c _ (mem_uc main_arg2 (by decide))).trans (W12_main_arg2 m ρ c),
     (h c _ (mem_uc main_arg3 (by decide))).trans (W12_main_arg3 m ρ c),
     (h c _ (mem_uc main_arg4 (by decide))).trans (W12_main_arg4 m ρ c),
     (h c _ (mem_uc main_arg5 (by decide))).trans (W12_main_arg5 m ρ c),
     (h c _ (mem_uc main_arg6 (by decide))).trans (W12_main_arg6 m ρ c),
     (h c _ (mem_uc main_arg7 (by decide))).trans (W12_main_arg7 m ρ c),
     (h c _ (mem_uc main_arg8 (by decide))).trans (W12_main_arg8 m ρ c),
     (h c _ (mem_uc main_arg9 (by decide))).trans (W12_main_arg9 m ρ c),
     (h c _ (mem_uc main_arg10 (by decide))).trans (W12_main_arg10 m ρ c)⟩)
    (run_all m ρ)

end Cert.KernelIdeal.Hand

end
-- ==== Proof.LibMatmulPlain.lean ====
/-
  A plain matrix product read at an entry. For dimension numbers that contract the second axis of an [M, K] array with
  the first axis of a [K, N] array, with no batch axes, the product into a zero accumulator is, at entry (r, q), the sum
  over k of left(r, k) * right(k, q) on the extended reals.
-/
import Idealize.ShloMosaic.PureOps.Ideal
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem rank_contr_one : d.contr.rank = 1 := by rw [d.rank_contr, hlc]; rfl

include hlc in
theorem size_contr_zero : d.contr.size ⟨0, by rw [rank_contr_one d hlc]; exact Nat.one_pos⟩ = K := by
  have := d.size_contr 0 (by rw [hlc]; exact Nat.one_pos)
  rw [this]
  simp [hlc]

include hln hlb in
/-- The left operand is read in the row of the result entry … -/
theorem lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- … and the right operand in its column. -/
theorem rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The product into the zero accumulator at entry (r, q): the sum over the contracted axis. -/
theorem matmul_zero_apply {φ₁ φ₂ : FTy} (prec : Option ContractPrecision) (lhs : FVec Ideal ⟨2, ![M, K]⟩ φ₁)
    (rhs : FVec Ideal ⟨2, ![K, N]⟩ φ₂) (r : Fin M) (q : Fin N) :
    FloatOps.matmul d prec lhs rhs (constant ⟨2, ![M, N]⟩ .f32 0x00000000#32) (ix2 r q)
      = ∑ k : Fin K, lhs (ix2 r k) * rhs (ix2 k q) := by
  rw [Ideal.matmul_constant_zero_apply,
    ← Equiv.sum_comp (contrEquiv1 d K (rank_contr_one d hlc) (size_contr_zero d hlc)).symm]
  refine Finset.sum_congr rfl fun k _ => ?_
  have hk := contrEquiv1_symm_val d K (rank_contr_one d hlc) (size_contr_zero d hlc) k
  congr 1
  · refine congrArg lhs (funext fun a => Fin.ext ?_)
    match a with
    | ⟨0, _⟩ => exact lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact rhs_col d hln hrn hlb hrb _ _

end Cert.LibMatmulPlain

end
-- ==== Proof.LibDotsNT.lean ====
/-
  Matrix products read at an entry, on the extended reals.

  * Right operand contracted on its LAST axis: for dimension numbers that contract the second axis of an [M, K] array
    with the second axis of an [N, K] array, with no batch axes, the product at entry (r, q) is the sum over k of
    left(r, k) * right(q, k) -- for the matrix unit's product into a zero accumulator (`nt_matmul_zero_apply`) and
    for the host's dot_general (`nt_dotGeneral_apply`).
  * The host's dot_general with the plain dimension numbers, [M, K] by [K, N]: at entry (r, q) the sum over k of
    left(r, k) * right(k, q) (`plain_dotGeneral_apply`).
-/
import Idealize.ShloMosaic.PureOps.Ideal
import Idealize.ShloMosaic.PureOps.Ideal.Laws
import Idealize.ShloMosaic.Lib.ValueIdx

noncomputable section

open scoped BigOperators

namespace Cert.LibDotsNT

open Idealize.ShloMosaic Idealize.ShloMosaic.ValueIdx

section NT

variable {M K N : Nat} (d : DotDims ⟨2, ![M, K]⟩ ⟨2, ![N, K]⟩ ⟨2, ![M, N]⟩)
  (hlc : d.lhsContracting = [1]) (hrc : d.rhsContracting = [1]) (hln : d.lhsNonContracting = [0])
  (hrn : d.rhsNonContracting = [0]) (hlb : d.lhsBatch = []) (hrb : d.rhsBatch = [])

include hlc in
theorem nt_rank_contr_one : d.contr.rank = 1 := by rw [d.rank_contr, hlc]; rfl

include hlc in
theorem nt_size_contr_zero : d.contr.size ⟨0, by rw [nt_rank_contr_one d hlc]; exact Nat.one_pos⟩ = K := by
  have := d.size_contr 0 (by rw [hlc]; exact Nat.one_pos)
  rw [this]
  simp [hlc]

include hln hlb in
/-- The left operand is read in the row of the result entry ... -/
theorem nt_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- ... and the right operand in the row numbered by the result entry's column. -/
theorem nt_rhs_row (j : (⟨2, ![M, N]⟩ : Shape).Idx) (k : d.contr.Idx) : ((d.rhsIdx j k 0 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The contraction's sum re-indexed by the one contracted coordinate. -/
theorem nt_sum_apply {φ₁ φ₂ : FTy} (lhs : FVec Ideal ⟨2, ![M, K]⟩ φ₁) (rhs : FVec Ideal ⟨2, ![N, K]⟩ φ₂) (r : Fin M) (q : Fin N) :
    ∑ k : d.contr.Idx, lhs (d.lhsIdx (ix2 r q) k) * rhs (d.rhsIdx (ix2 r q) k)
      = ∑ k : Fin K, lhs (ix2 r k) * rhs (ix2 q k) := by
  rw [← Equiv.sum_comp (contrEquiv1 d K (nt_rank_contr_one d hlc) (nt_size_contr_zero d hlc)).symm]
  refine Finset.sum_congr rfl fun k _ => ?_
  have hk := contrEquiv1_symm_val d K (nt_rank_contr_one d hlc) (nt_size_contr_zero d hlc) k
  congr 1
  · refine congrArg lhs (funext fun a => Fin.ext ?_)
    match a with
    | ⟨0, _⟩ => exact nt_lhs_row d hln hlb _ _
    | ⟨1, _⟩ => exact (d.lhsIdx_val_of_single hlc _ _).trans hk
  · refine congrArg rhs (funext fun a => Fin.ext ?_)
    match a with
    | ⟨0, _⟩ => exact nt_rhs_row d hln hrn hlb hrb _ _
    | ⟨1, _⟩ => exact (d.rhsIdx_val_of_single hrc _ _).trans hk

include hlc hrc hln hrn hlb hrb in
/-- The matrix unit's product into the zero accumulator at entry (r, q). -/
theorem nt_matmul_zero_apply {φ₁ φ₂ : FTy} (prec : Option ContractPrecision) (lhs : FVec Ideal ⟨2, ![M, K]⟩ φ₁)
    (rhs : FVec Ideal ⟨2, ![N, K]⟩ φ₂) (r : Fin M) (q : Fin N) :
    FloatOps.matmul d prec lhs rhs (constant ⟨2, ![M, N]⟩ .f32 0x00000000#32) (ix2 r q)
      = ∑ k : Fin K, lhs (ix2 r k) * rhs (ix2 q k) := by
  rw [Ideal.matmul_constant_zero_apply]
  exact nt_sum_apply d hlc hrc hln hrn hlb hrb lhs rhs r q

include hlc hrc hln hrn hlb hrb in
/-- The host's dot_general at entry (r, q). -/
theorem nt_dotGeneral_apply {φ₁ φ₂ : FTy} (prec : Option ContractPrecision) (sched : HostSchedule)
    (lhs : FVec Ideal ⟨2, ![M, K]⟩ φ₁) (rhs : FVec Ideal ⟨2, ![N, K]⟩ φ₂) (r : Fin M) (q : Fin N) :
    FloatOps.dotGeneral d prec sched lhs rhs (ix2 r q) = ∑ k : Fin K, lhs (ix2 r k) * rhs (ix2 q k) := by
  rw [Ideal.dotGeneral_apply]
  exact nt_sum_apply d hlc hrc hln hrn hlb hrb lhs rhs r q

end NT

section Plain

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem plain_rank_contr_one : d.contr.rank = 1 := by rw [d.rank_contr, hlc]; rfl

include hlc in
theorem plain_size_contr_zero : d.contr.size ⟨0, by rw [plain_rank_contr_one d hlc]; exact Nat.one_pos⟩ = K := by
  have := d.size_contr 0 (by rw [hlc]; exact Nat.one_pos)
  rw [this]
  simp [hlc]

include hln hlb in
theorem plain_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
theorem plain_rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The host's dot_general with the plain dimension numbers at entry (r, q). -/
theorem plain_dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (q : Fin N) :
    FloatOps.dotGeneral d prec sched lhs rhs (ix2 r q) = ∑ k : Fin K, lhs (ix2 r k) * rhs (ix2 k q) := by
  rw [Ideal.dotGeneral_apply,
    ← Equiv.sum_comp (contrEquiv1 d K (plain_rank_contr_one d hlc) (plain_size_contr_zero d hlc)).symm]
  refine Finset.sum_congr rfl fun k _ => ?_
  have hk := contrEquiv1_symm_val d K (plain_rank_contr_one d hlc) (plain_size_contr_zero d hlc) k
  congr 1
  · refine congrArg lhs (funext fun a => Fin.ext ?_)
    match a with
    | ⟨0, _⟩ => exact plain_lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact plain_rhs_col d hln hrn hlb hrb _ _

end Plain

end Cert.LibDotsNT

end
-- ==== Proof.LibKeepdims.lean ====
/-
  Reading a row sum kept as a column. A sum along the rows of an `[a, b]` array is an `[a]` vector; kept as a
  column it is cast to `[a, 1]` and then spread over `[a, c]`. Read at `(p, q)` each step looks at row `p` only:
  the cast ignores the unit coordinate, the spreading ignores the column, and the sum ranges over the `b` entries
  of row `p`. The three steps are stated one by one, over indices written by their coordinates, and then composed.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` vector cast to the column `[a, 1]` reads, at `(i, u)`, the vector at `i`, whatever the unit
    coordinate `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Putting the summed coordinate `k` back into the reduced index `p` gives the entry `(p, k)`. -/
theorem lift_cols {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A float sum along the second axis from the zero pattern, read at row `p`, is the sum of that row's entries
    on the extended reals. -/
theorem rowSum_apply {m n : ℕ} (src : FVec Ideal ⟨2, ![m, n]⟩ .f32) (h : (⟨2, ![m, n]⟩ : Shape).Reduces [1] (⟨1, ![m]⟩ : Shape))
    (hφ : FKind.Formats .f32) (hacc : (0x00000000#32 : BitVec 32) = 0x00000000#32) (p : Fin m) :
    multiReduction .add [1] (⟨1, ![m]⟩ : Shape) src 0x00000000#32 h hφ hacc (ix1 p) = ∑ k : Fin n, src (ix2 p k) := by
  refine (Ideal.multiReduction_add_single src 0x00000000#32 h hφ hacc (ix1 p)).trans ?_
  exact Finset.sum_congr rfl fun k _ => congrArg src (lift_cols h p k)

/-- The three steps composed: the row sums of an `[a, b]` array, kept as a column and spread over `[a, c]`, read at
    `(p, q)` the sum of row `p`. -/
theorem rowSum_column_apply {a b c : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32)
    (hcast : (⟨1, ![a]⟩ : Shape).ShapeCasts ⟨2, ![a, 1]⟩) (hbc : (⟨2, ![a, 1]⟩ : Shape).Broadcasts ⟨2, ![a, c]⟩)
    (p : Fin a) (q : Fin c) :
    broadcastTo ⟨2, ![a, c]⟩ (shapeCast ⟨2, ![a, 1]⟩ (multiReduction .add [1] (⟨1, ![a]⟩ : Shape) src 0x00000000#32 h hφ hacc) hcast) hbc (ix2 p q)
      = ∑ k : Fin b, src (ix2 p k) :=
  (broadcastTo_a1_ab_apply _ hbc p q).trans ((shapeCast_a_a1_apply _ hcast p 0).trans (rowSum_apply src h hφ hacc p))

/-- One row `[1, b]`, cast to its own shape and spread over `[a, b]`, reads at `(p, q)` the row's entry `q`. -/
theorem row_spread_apply {a b : ℕ} (v : (⟨2, ![1, b]⟩ : Shape).Idx → α) (hcast : (⟨2, ![1, b]⟩ : Shape).ShapeCasts ⟨2, ![1, b]⟩)
    (hbc : (⟨2, ![1, b]⟩ : Shape).Broadcasts ⟨2, ![a, b]⟩) (p : Fin a) (q : Fin b) :
    broadcastTo ⟨2, ![a, b]⟩ (shapeCast ⟨2, ![1, b]⟩ v hcast) hbc (ix2 p q) = v (ix2 (0 : Fin 1) q) :=
  (broadcastTo_1b_ab_apply _ hbc p q).trans (congrFun (shapeCast_self v hcast) _)

end Cert.LibKeepdims

end
-- ==== Proof.LibDenseLayer.lean ====
/-
  One dense layer of the network, read at an entry of its result, on the extended reals.

  For a feature array h : [a, k], a weight matrix W : [k, n], a column of row scales S : [a, 1] and a row of
  biases B : [1, n] the layer computes the product P = h W and the affine form P * S + B, the scale taken per row and
  the bias per column.  The tile of a grid point spells this with the matrix unit's product of the operands rounded
  to bfloat16 (a change of format, which does nothing to an extended real), a column spread over the columns and a
  row spread over the rows; the host spells it with a dot_general and two broadcast_in_dim.  Both spellings are the
  same function of the four arrays, index by index: `prod` and `affine` below.

  Also here: a vector laid out as a column [a] -> [a, 1], or as a row [n] -> [1, n], is the same array whether it is
  written as a reshape or as a broadcast_in_dim; and adding three arrays does not depend on the grouping.
-/
import Idealize.ShloMosaic.Lib.Pipeline.Value
import Idealize.ShloMosaic.Lib.ValueIdx
import Idealize.ShloMosaic.Lib.ValueLayout
import Idealize.ShloMosaic.PureOps.Ideal.Laws
import proofs.«137481_j50019189129858_1_alg».proof.Proof.LibMatmulPlain
import proofs.«137481_j50019189129858_1_alg».proof.Proof.LibDotsNT
import proofs.«137481_j50019189129858_1_alg».proof.Proof.LibKeepdims

noncomputable section

open scoped BigOperators

namespace Cert.Dense

open Idealize.ShloMosaic Idealize.ShloMosaic.ValueIdx

variable {a k n : ℕ}

/-- The product of an [a, k] array and a [k, n] array at entry (r, q): the sum over c of h(r, c) * W(c, q). -/
def prod (h : (⟨2, ![a, k]⟩ : Shape).Idx → EReal) (W : (⟨2, ![k, n]⟩ : Shape).Idx → EReal) :
    (⟨2, ![a, n]⟩ : Shape).Idx → EReal :=
  fun i => ∑ c : Fin k, h (ix2 (i 0) c) * W (ix2 c (i 1))

/-- The product with row r scaled by S(r, 0) and B(0, q) added in column q. -/
def affine (h : (⟨2, ![a, k]⟩ : Shape).Idx → EReal) (W : (⟨2, ![k, n]⟩ : Shape).Idx → EReal)
    (S : (⟨2, ![a, 1]⟩ : Shape).Idx → EReal) (B : (⟨2, ![1, n]⟩ : Shape).Idx → EReal) :
    (⟨2, ![a, n]⟩ : Shape).Idx → EReal :=
  fun i => prod h W i * S (ix2 (i 0) (0 : Fin 1)) + B (ix2 (0 : Fin 1) (i 1))

/-- The product with B(0, q) added in column q (no row scale). -/
def biased (h : (⟨2, ![a, k]⟩ : Shape).Idx → EReal) (W : (⟨2, ![k, n]⟩ : Shape).Idx → EReal)
    (B : (⟨2, ![1, n]⟩ : Shape).Idx → EReal) : (⟨2, ![a, n]⟩ : Shape).Idx → EReal :=
  fun i => prod h W i + B (ix2 (0 : Fin 1) (i 1))

theorem prod_ix2 (h : (⟨2, ![a, k]⟩ : Shape).Idx → EReal) (W : (⟨2, ![k, n]⟩ : Shape).Idx → EReal) (r : Fin a) (q : Fin n) :
    prod h W (ix2 r q) = ∑ c : Fin k, h (ix2 r c) * W (ix2 c q) := rfl

section Products

variable (d : DotDims ⟨2, ![a, k]⟩ ⟨2, ![k, n]⟩ ⟨2, ![a, n]⟩)
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb in
/-- The matrix unit's product of the two operands rounded to bfloat16, into a zero accumulator, is the product. -/
theorem matmul_eq_prod (x0 : FVec Ideal ⟨2, ![a, k]⟩ .f32) (x1 : FVec Ideal ⟨2, ![k, n]⟩ .f32)
    (hb : FTy.bf16.bits < FTy.f32.bits) :
    matmul d none (truncf .bf16 x0 hb) (truncf .bf16 x1 hb) (constant (F := Ideal) ⟨2, ![a, n]⟩ .f32 0x00000000#32)
      = prod x0 x1 := by
  funext j
  obtain ⟨r, q, rfl⟩ : ∃ (r : Fin a) (q : Fin n), j = ix2 r q := ⟨j 0, j 1, eq_ix2 j⟩
  exact Cert.LibMatmulPlain.matmul_zero_apply d hlc hrc hln hrn hlb hrb none _ _ r q

include hlc hrc hln hrn hlb hrb in
/-- The host's dot_general is the product. -/
theorem dotGeneral_eq_prod (h : FVec Ideal ⟨2, ![a, k]⟩ .f32) (W : FVec Ideal ⟨2, ![k, n]⟩ .f32) :
    Host.dotGeneral (F := Ideal) d none h W = prod h W := by
  funext j
  obtain ⟨r, q, rfl⟩ : ∃ (r : Fin a) (q : Fin n), j = ix2 r q := ⟨j 0, j 1, eq_ix2 j⟩
  exact Cert.LibDotsNT.plain_dotGeneral_apply d hlc hrc hln hrn hlb hrb none .single h W r q

end Products

/-- The tile's spelling of the scale and the bias: the column cast to its own shape and spread over the columns, the
    row cast to its own shape and spread over the rows. -/
theorem tile_affine (P : FVec Ideal ⟨2, ![a, n]⟩ .f32) (x2 : FVec Ideal ⟨2, ![a, 1]⟩ .f32) (x3 : FVec Ideal ⟨2, ![1, n]⟩ .f32)
    (hc2 : (⟨2, ![a, 1]⟩ : Shape).ShapeCasts ⟨2, ![a, 1]⟩) (hb2 : (⟨2, ![a, 1]⟩ : Shape).Broadcasts ⟨2, ![a, n]⟩)
    (hc3 : (⟨2, ![1, n]⟩ : Shape).ShapeCasts ⟨2, ![1, n]⟩) (hb3 : (⟨2, ![1, n]⟩ : Shape).Broadcasts ⟨2, ![a, n]⟩)
    (r : Fin a) (q : Fin n) :
    addf (mulf P (broadcastTo ⟨2, ![a, n]⟩ (shapeCast ⟨2, ![a, 1]⟩ x2 hc2) hb2))
        (broadcastTo ⟨2, ![a, n]⟩ (shapeCast ⟨2, ![1, n]⟩ x3 hc3) hb3) (ix2 r q)
      = P (ix2 r q) * x2 (ix2 r (0 : Fin 1)) + x3 (ix2 (0 : Fin 1) q) := by
  rw [addf_apply, mulf_apply, Cert.LibKeepdims.row_spread_apply, Cert.LibKeepdims.broadcastTo_a1_ab_apply, shapeCast_self]

/-- The tile's spelling of the bias alone. -/
theorem tile_biased (P : FVec Ideal ⟨2, ![a, n]⟩ .f32) (x3 : FVec Ideal ⟨2, ![1, n]⟩ .f32)
    (hc3 : (⟨2, ![1, n]⟩ : Shape).ShapeCasts ⟨2, ![1, n]⟩) (hb3 : (⟨2, ![1, n]⟩ : Shape).Broadcasts ⟨2, ![a, n]⟩)
    (r : Fin a) (q : Fin n) :
    addf P (broadcastTo ⟨2, ![a, n]⟩ (shapeCast ⟨2, ![1, n]⟩ x3 hc3) hb3) (ix2 r q)
      = P (ix2 r q) + x3 (ix2 (0 : Fin 1) q) := by
  rw [addf_apply, Cert.LibKeepdims.row_spread_apply]

/-- A column [a, 1] laid over [a, n] by broadcast_in_dim along both axes reads, at (r, q), the column's entry of row r. -/
theorem bcast_col_apply {α : Type} (S : (⟨2, ![a, 1]⟩ : Shape).Idx → α)
    (hS : (⟨2, ![a, 1]⟩ : Shape).BroadcastsInDim ⟨2, ![a, n]⟩ ![0, 1]) (r : Fin a) (q : Fin n) :
    broadcastInDim ⟨2, ![a, n]⟩ ![0, 1] hS S (ix2 r q) = S (ix2 r (0 : Fin 1)) := by
  refine broadcastInDim_apply ![0, 1] hS S (ix2 r q) (ix2 r (0 : Fin 1)) fun ax => ?_
  match ax with
  | ⟨0, _⟩ =>
    show r.val = if a = 1 then 0 else r.val
    split
    · have := r.isLt; omega
    · rfl
  | ⟨1, _⟩ => rfl

/-- A row [1, n] laid over [a, n] by broadcast_in_dim along both axes reads, at (r, q), the row's entry of column q. -/
theorem bcast_row_apply {α : Type} (B : (⟨2, ![1, n]⟩ : Shape).Idx → α)
    (hB : (⟨2, ![1, n]⟩ : Shape).BroadcastsInDim ⟨2, ![a, n]⟩ ![0, 1]) (r : Fin a) (q : Fin n) :
    broadcastInDim ⟨2, ![a, n]⟩ ![0, 1] hB B (ix2 r q) = B (ix2 (0 : Fin 1) q) := by
  refine broadcastInDim_apply ![0, 1] hB B (ix2 r q) (ix2 (0 : Fin 1) q) fun ax => ?_
  match ax with
  | ⟨0, _⟩ => rfl
  | ⟨1, _⟩ =>
    show q.val = if n = 1 then 0 else q.val
    split
    · have := q.isLt; omega
    · rfl

/-- The host's spelling of the affine form is `affine`. -/
theorem host_affine (P : FVec Ideal ⟨2, ![a, n]⟩ .f32) (S : FVec Ideal ⟨2, ![a, 1]⟩ .f32) (B : FVec Ideal ⟨2, ![1, n]⟩ .f32)
    (hS : (⟨2, ![a, 1]⟩ : Shape).BroadcastsInDim ⟨2, ![a, n]⟩ ![0, 1])
    (hB : (⟨2, ![1, n]⟩ : Shape).BroadcastsInDim ⟨2, ![a, n]⟩ ![0, 1]) (r : Fin a) (q : Fin n) :
    addf (mulf P (broadcastInDim ⟨2, ![a, n]⟩ ![0, 1] hS S)) (broadcastInDim ⟨2, ![a, n]⟩ ![0, 1] hB B) (ix2 r q)
      = P (ix2 r q) * S (ix2 r (0 : Fin 1)) + B (ix2 (0 : Fin 1) q) := by
  rw [addf_apply, mulf_apply, bcast_col_apply, bcast_row_apply]

/-- The host's spelling of the bias alone. -/
theorem host_biased (P : FVec Ideal ⟨2, ![a, n]⟩ .f32) (B : FVec Ideal ⟨2, ![1, n]⟩ .f32)
    (hB : (⟨2, ![1, n]⟩ : Shape).BroadcastsInDim ⟨2, ![a, n]⟩ ![0, 1]) (r : Fin a) (q : Fin n) :
    addf P (broadcastInDim ⟨2, ![a, n]⟩ ![0, 1] hB B) (ix2 r q) = P (ix2 r q) + B (ix2 (0 : Fin 1) q) := by
  rw [addf_apply, bcast_row_apply]

section HostForms

variable (d : DotDims ⟨2, ![a, k]⟩ ⟨2, ![k, n]⟩ ⟨2, ![a, n]⟩)
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb in
/-- The affine form as the host spells it: the dot_general times the scale column laid over the columns, plus the bias
    row laid over the rows. -/
theorem affine_eq_host (h : FVec Ideal ⟨2, ![a, k]⟩ .f32) (W : FVec Ideal ⟨2, ![k, n]⟩ .f32)
    (S : FVec Ideal ⟨2, ![a, 1]⟩ .f32) (B : FVec Ideal ⟨2, ![1, n]⟩ .f32)
    (hS : (⟨2, ![a, 1]⟩ : Shape).BroadcastsInDim ⟨2, ![a, n]⟩ ![0, 1])
    (hB : (⟨2, ![1, n]⟩ : Shape).BroadcastsInDim ⟨2, ![a, n]⟩ ![0, 1]) :
    affine h W S B
      = addf (mulf (Host.dotGeneral (F := Ideal) d none h W) (broadcastInDim ⟨2, ![a, n]⟩ ![0, 1] hS S))
          (broadcastInDim ⟨2, ![a, n]⟩ ![0, 1] hB B) := by
  funext j
  obtain ⟨r, q, rfl⟩ : ∃ (r : Fin a) (q : Fin n), j = ix2 r q := ⟨j 0, j 1, eq_ix2 j⟩
  rw [host_affine, dotGeneral_eq_prod d hlc hrc hln hrn hlb hrb]
  rfl

include hlc hrc hln hrn hlb hrb in
/-- The biased form as the host spells it. -/
theorem biased_eq_host (h : FVec Ideal ⟨2, ![a, k]⟩ .f32) (W : FVec Ideal ⟨2, ![k, n]⟩ .f32)
    (B : FVec Ideal ⟨2, ![1, n]⟩ .f32) (hB : (⟨2, ![1, n]⟩ : Shape).BroadcastsInDim ⟨2, ![a, n]⟩ ![0, 1]) :
    biased h W B
      = addf (Host.dotGeneral (F := Ideal) d none h W) (broadcastInDim ⟨2, ![a, n]⟩ ![0, 1] hB B) := by
  funext j
  obtain ⟨r, q, rfl⟩ : ∃ (r : Fin a) (q : Fin n), j = ix2 r q := ⟨j 0, j 1, eq_ix2 j⟩
  rw [host_biased, dotGeneral_eq_prod d hlc hrc hln hrn hlb hrb]
  rfl

end HostForms

/-- A vector laid out as a column: the reshape [a] -> [a, 1] and the broadcast_in_dim along axis 0 are one array. -/
theorem column_cast_eq_bcast {α : Type} (x : (⟨1, ![a]⟩ : Shape).Idx → α)
    (hc : (⟨1, ![a]⟩ : Shape).ShapeCasts ⟨2, ![a, 1]⟩) (hb : (⟨1, ![a]⟩ : Shape).BroadcastsInDim ⟨2, ![a, 1]⟩ ![0]) :
    shapeCast ⟨2, ![a, 1]⟩ x hc = broadcastInDim ⟨2, ![a, 1]⟩ ![0] hb x := by
  funext j
  obtain ⟨r, u, rfl⟩ : ∃ (r : Fin a) (u : Fin 1), j = ix2 r u := ⟨j 0, j 1, eq_ix2 j⟩
  rw [Cert.LibKeepdims.shapeCast_a_a1_apply]
  refine (broadcastInDim_apply ![0] hb x (ix2 r u) (ix1 r) fun ax => ?_).symm
  match ax with
  | ⟨0, _⟩ =>
    show r.val = if a = 1 then 0 else r.val
    split
    · have := r.isLt; omega
    · rfl

/-- A vector laid out as a row: the reshape [n] -> [1, n] and the broadcast_in_dim along axis 1 are one array. -/
theorem row_cast_eq_bcast {α : Type} (x : (⟨1, ![n]⟩ : Shape).Idx → α)
    (hc : (⟨1, ![n]⟩ : Shape).ShapeCasts ⟨2, ![1, n]⟩) (hb : (⟨1, ![n]⟩ : Shape).BroadcastsInDim ⟨2, ![1, n]⟩ ![1]) :
    shapeCast ⟨2, ![1, n]⟩ x hc = broadcastInDim ⟨2, ![1, n]⟩ ![1] hb x := by
  funext j
  obtain ⟨u, q, rfl⟩ : ∃ (u : Fin 1) (q : Fin n), j = ix2 u q := ⟨j 0, j 1, eq_ix2 j⟩
  rw [shapeCast_a_1a_apply]
  refine (broadcastInDim_apply ![1] hb x (ix2 u q) (ix1 q) fun ax => ?_).symm
  match ax with
  | ⟨0, _⟩ =>
    show q.val = if n = 1 then 0 else q.val
    split
    · have := q.isLt; omega
    · rfl

/-- Adding three arrays: the grouping does not matter (addition of extended reals is associative). -/
theorem addf_assoc {s : Shape} {φ : FTy} (x y z : FVec Ideal s φ) : addf x (addf y z) = addf (addf x y) z := by
  funext i
  rw [addf_apply, addf_apply, addf_apply, addf_apply, add_assoc]

end Cert.Dense

end
-- ==== Proof.RefStages.lean ====
/-
  Stages of the reference that recur.  The reference's program recomputes, for each of its three layers, the per-node
  scale deg^-1 as a column and the per-edge coefficient deg^-1/2(src) deg^-1/2(dst) as a column, by the same
  operations of the same arrays: the later copies are the first layer's.  Each equation is seen by opening the stages
  on both sides down to the inverse square root of the degrees and the two index vectors.
-/
import proofs.«137481_j50019189129858_1_alg».proof.Proof.Gen.ReferenceIdeal.Read

set_option maxRecDepth 16384

noncomputable section

namespace Cert.RefStages

open Cert.ReferenceIdeal Cert.ReferenceIdeal.Gen Cert.ReferenceIdeal.Read Idealize.ShloMosaic

variable (x1 : (⟨S2x800000, .i32⟩ : BufTy).Contents (Elt Ideal))

/-- The second layer's scale column is the first layer's. -/
theorem scale2 : val_main_v79 (F := Ideal) x1 = val_main_v41 (F := Ideal) x1 := by
  unfold val_main_v79 val_main_v78 val_main_v41 val_main_v40
  rfl

/-- The third layer's scale column is the first layer's. -/
theorem scale3 : val_main_v117 (F := Ideal) x1 = val_main_v41 (F := Ideal) x1 := by
  unfold val_main_v117 val_main_v116 val_main_v41 val_main_v40
  rfl

/-- The second layer's edge coefficients are the first layer's. -/
theorem coef2 : val_main_v65 (F := Ideal) x1 = val_main_v27 (F := Ideal) x1 := by
  unfold val_main_v65 val_main_v64 val_main_v56 val_main_v55 val_main_v54 val_main_v51 val_main_v50 val_main_c_8
  unfold val_main_v53 val_main_v52 val_main_c_9 val_main_v63 val_main_v62 val_main_v61 val_main_v58 val_main_v57
  unfold val_main_c_10 val_main_v60 val_main_v59 val_main_c_11
  unfold val_main_v27 val_main_v26 val_main_v18 val_main_v17 val_main_v16 val_main_v13 val_main_v12 val_main_c
  unfold val_main_v15 val_main_v14 val_main_c_2 val_main_v25 val_main_v24 val_main_v23 val_main_v20 val_main_v19
  unfold val_main_c_3 val_main_v22 val_main_v21 val_main_c_4
  rfl

/-- The third layer's edge coefficients are the first layer's. -/
theorem coef3 : val_main_v103 (F := Ideal) x1 = val_main_v27 (F := Ideal) x1 := by
  unfold val_main_v103 val_main_v102 val_main_v94 val_main_v93 val_main_v92 val_main_v89 val_main_v88
  unfold val_main_c_15 val_main_v91 val_main_v90 val_main_c_16 val_main_v101 val_main_v100 val_main_v99
  unfold val_main_v96 val_main_v95 val_main_c_17 val_main_v98 val_main_v97 val_main_c_18
  unfold val_main_v27 val_main_v26 val_main_v18 val_main_v17 val_main_v16 val_main_v13 val_main_v12 val_main_c
  unfold val_main_v15 val_main_v14 val_main_c_2 val_main_v25 val_main_v24 val_main_v23 val_main_v20 val_main_v19
  unfold val_main_c_3 val_main_v22 val_main_v21 val_main_c_4
  rfl

end Cert.RefStages

end
-- ==== Proof.Region3.lean ====
/-
  The last launch of the idealized kernel: the readout layer, in one tile.

  The launch has a single grid point.  It stages the pooled features [512, 128], the readout weights [128, 1] and the
  bias [1, 1] whole, stores the product of the first two plus the bias spread over the rows, and writes that block
  back as the whole result array [512, 1].  After the launch the result array is `Dense.biased` of the three arrays
  the launch found.
-/
import proofs.«137481_j50019189129858_1_alg».proof.Proof.Gen.KernelIdeal.Frame
import proofs.«137481_j50019189129858_1_alg».proof.Proof.LibDenseLayer
import Idealize.ShloMosaic.Lib.Pipeline.Value

set_option maxRecDepth 16384

noncomputable section

namespace Cert.KernelIdeal.Hand.L3

open Cert.KernelIdeal Cert.KernelIdeal.Gen
open Idealize.ShloMosaic Idealize.ShloMosaic.TcCoe Idealize.SL.Sem Idealize.ShloMosaic.ValueIdx
open Idealize.ShloMosaic.Pipeline (Dat)

-- the buffers' contents when the launch is entered
variable (V : (c : Dev nD) → (b : Ref sig .tc) → Buf (Elt Ideal) ((c : Thread nD τ).loc b))

theorem offsets : (![0, 0] : Fin 2 → Nat) = fun _ => 0 := funext fun a => by fin_cases a <;> rfl

/-- Every window's block index is (0, 0) at the one point. -/
theorem index_maps : ∀ t : Fin cfg3.N,
      win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0 :=
  (by decide +kernel : ∀ t : Fin grid3.N, _)

/-- The tile's one store: the product plus the bias. -/
theorem tile_biased (x0 : FVec Ideal S512x128 .f32) (x1 : FVec Ideal S128x1 .f32) (x2 : FVec Ideal S1x1 .f32) :
    k3_pay1 (F := Ideal) x0 x1 x2 = Cert.Dense.biased x0 x1 x2 := by
  funext j
  obtain ⟨p, q, rfl⟩ : ∃ (p : Fin 512) (q : Fin 1), j = ix2 p q := ⟨j 0, j 1, eq_ix2 j⟩
  unfold k3_pay1
  rw [shapeCast_self]
  refine (Cert.Dense.tile_biased _ x2 shapeCasts_S1x1_S1x1 broadcasts_S1x1_S512x1 p q).trans ?_
  rw [Cert.Dense.matmul_eq_prod dot_S512x128_S128x1_S512x1_1_0_0_1_n_n rfl rfl rfl rfl rfl rfl x0 x1 bitsLt_bf16_f32]
  rfl

/-- The pooled features' block is the whole array. -/
theorem whole_features (c : Dev nD) (t : Fin cfg3.N) :
    (iblk3 V c 0 t : FVec Ideal S512x128 .f32) = (V c main_v78 : S512x128.Idx → EReal) := by
  obtain ⟨e00, e01, -⟩ := index_maps t
  funext y
  unfold iblk3
  rw [View.read_apply]
  show V c main_v78 _ = V c main_v78 _
  congr 1
  funext a
  apply Fin.ext
  match a with
  | ⟨0, _⟩ => show win3_0.index t (0 : Fin 2) * 512 + 1 * (y 0).val = (y 0).val; rw [e00]; omega
  | ⟨1, _⟩ => show win3_0.index t (1 : Fin 2) * 128 + 1 * (y 1).val = (y 1).val; rw [e01]; omega

/-- The readout weights' block is the whole matrix. -/
theorem whole_weights (c : Dev nD) (t : Fin cfg3.N) :
    (iblk3 V c 1 t : FVec Ideal S128x1 .f32) = (V c main_arg9 : S128x1.Idx → EReal) := by
  obtain ⟨-, -, e10, e11, -⟩ := index_maps t
  funext y
  unfold iblk3
  rw [View.read_apply]
  show V c main_arg9 _ = V c main_arg9 _
  congr 1
  funext a
  apply Fin.ext
  match a with
  | ⟨0, _⟩ => show win3_1.index t (0 : Fin 2) * 128 + 1 * (y 0).val = (y 0).val; rw [e10]; omega
  | ⟨1, _⟩ => show win3_1.index t (1 : Fin 2) * 1 + 1 * (y 1).val = (y 1).val; rw [e11]; omega

/-- The bias' block is the whole [1, 1] array. -/
theorem whole_bias (c : Dev nD) (t : Fin cfg3.N) :
    (iblk3 V c 2 t : FVec Ideal S1x1 .f32) = (V c main_v79 : S1x1.Idx → EReal) := by
  obtain ⟨-, -, -, -, e20, e21, -⟩ := index_maps t
  funext y
  unfold iblk3
  rw [View.read_apply]
  show V c main_v79 _ = V c main_v79 _
  congr 1
  funext a
  apply Fin.ext
  match a with
  | ⟨0, _⟩ => show win3_2.index t (0 : Fin 2) * 1 + 1 * (y 0).val = (y 0).val; rw [e20]; omega
  | ⟨1, _⟩ => show win3_2.index t (1 : Fin 2) * 1 + 1 * (y 1).val = (y 1).val; rw [e21]; omega

/-- The one point writes back the biased product of the whole arrays. -/
theorem flushed_biased (c : Dev nD) (t : Fin cfg3.N) :
    (dat3 V c).flushed 3 t
      = ((cfg3.win 3).blk t).view.read (Elt Ideal)
          (Cert.Dense.biased (V c main_v78 : S512x128.Idx → EReal) (V c main_arg9 : S128x1.Idx → EReal)
            (V c main_v79 : S1x1.Idx → EReal)) := by
  show (cfg3.win 3).cut (grid3.coords t) ((dat3 V c).after 3 t) = _
  rw [after3_3]
  unfold out3_3
  rw [View.canon_unit_zero offsets]
  simp only [View.ld_unit_zero (S := S512x128) offsets, View.ld_unit_zero (S := S128x1) offsets,
    View.ld_unit_zero (S := S1x1) offsets]
  rw [tile_biased, whole_features V c t, whole_weights V c t, whole_bias V c t]
  obtain ⟨-, -, -, -, -, -, e30, e31⟩ := index_maps t
  funext j
  rw [View.read_apply]
  show Cert.Dense.biased _ _ _ j = Cert.Dense.biased _ _ _ _
  refine congrArg _ ?_
  funext a
  apply Fin.ext
  match a with
  | ⟨0, _⟩ => show (j 0).val = win3_3.index t (0 : Fin 2) * 512 + 1 * (j 0).val; rw [e30]; omega
  | ⟨1, _⟩ => show (j 1).val = win3_3.index t (1 : Fin 2) * 1 + 1 * (j 1).val; rw [e31]; omega

theorem mem_block (t : Fin cfg3.N) (i : S512x1.Idx) :
    i ∈ ((cfg3.win 3).blk t).view.set ↔ ∀ a : Fin 2, win3_3.index t a * S512x1.size a ≤ (i a).val ∧ (i a).val < win3_3.index t a * S512x1.size a + S512x1.size a := by
  show i ∈ ((View.whole main_v80).slice (win3_3.rect t)).set ↔ _
  rw [View.set_slice_whole, Rect.mem_set_unit]
  exact Iff.rfl

/-- The result array after the launch: the biased product of the three arrays as the launch found them. -/
theorem final_biased (c : Dev nD) :
    (dat3 V c).arrAt 3 cfg3.N
      = Cert.Dense.biased (V c main_v78 : S512x128.Idx → EReal) (V c main_arg9 : S128x1.Idx → EReal)
          (V c main_v79 : S1x1.Idx → EReal) :=
  (dat3 V c).arrAt_eq_of_cover 3 _ (fun t _ => flushed_biased V c t) fun i => by
    have hi0 : (i 0).val < 512 := (i 0).isLt
    have hi1 : (i 1).val < 1 := (i 1).isLt
    obtain ⟨-, -, -, -, -, -, e30, e31⟩ := index_maps t3_0
    refine ⟨t3_0, flush3_3 t3_0, ?_⟩
    rw [mem_block]
    intro a
    match a with
    | ⟨0, _⟩ =>
      show win3_3.index t3_0 (0 : Fin 2) * 512 ≤ (i 0).val ∧ (i 0).val < win3_3.index t3_0 (0 : Fin 2) * 512 + 512
      rw [e30]; omega
    | ⟨1, _⟩ =>
      show win3_3.index t3_0 (1 : Fin 2) * 1 ≤ (i 1).val ∧ (i 1).val < win3_3.index t3_0 (1 : Fin 2) * 1 + 1
      rw [e31]; omega

end Cert.KernelIdeal.Hand.L3

end
-- ==== Proof.Region2.lean ====
/-
  Launch 2 of the idealized kernel: one dense layer tiled by rows.

  The launch has ten grid points.  Point t stages rows 5000 t .. 5000 t + 4999 of the feature array [50000, 128] and of
  the column of row scales [50000, 1], the whole weight matrix [128, 128] and the whole bias row [1, 128]; its tile
  stores the product of the staged rows with the weights into the first output block and the product scaled per row
  plus the bias into the second, and both blocks are written back to rows 5000 t .. 5000 t + 4999 of the output arrays.
  A row of a product depends on the same row of the left operand only, so each written block is the corresponding
  block of one function of the WHOLE arrays (`Dense.prod`, `Dense.affine`), and the ten blocks cover the arrays:
  after the launch the two output arrays are those functions of the arrays the launch found.
-/
import proofs.«137481_j50019189129858_1_alg».proof.Proof.Gen.KernelIdeal.Frame
import proofs.«137481_j50019189129858_1_alg».proof.Proof.LibDenseLayer
import Idealize.ShloMosaic.Lib.Pipeline.Value

set_option maxRecDepth 16384

noncomputable section

namespace Cert.KernelIdeal.Hand.L2

open Cert.KernelIdeal Cert.KernelIdeal.Gen
open Idealize.ShloMosaic Idealize.ShloMosaic.TcCoe Idealize.SL.Sem Idealize.ShloMosaic.ValueIdx
open Idealize.ShloMosaic.Pipeline (Dat)

-- the buffers' contents when the launch is entered
variable (V : (c : Dev nD) → (b : Ref sig .tc) → Buf (Elt Ideal) ((c : Thread nD τ).loc b))

theorem offsets : (![0, 0] : Fin 2 → Nat) = fun _ => 0 := funext fun a => by fin_cases a <;> rfl

/-- The index maps over the grid: the row-tiled windows move with the point, the weights and the bias stay. -/
theorem index_maps : ∀ t : Fin cfg2.N,
      win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-! ## The tile's arithmetic -/

/-- The first store's value: the product of the staged rows with the weights. -/
theorem tile_prod (x0 : FVec Ideal S5000x128 .f32) (x1 : FVec Ideal S128x128 .f32) :
    k2_pay1 (F := Ideal) x0 x1 = Cert.Dense.prod x0 x1 := by
  unfold k2_pay1
  rw [shapeCast_self]
  exact Cert.Dense.matmul_eq_prod dot_S5000x128_S128x128_S5000x128_1_0_0_1_n_n rfl rfl rfl rfl rfl rfl x0 x1 bitsLt_bf16_f32

/-- The second store's value: the product scaled per row, plus the bias row. -/
theorem tile_affine (x0 : FVec Ideal S5000x128 .f32) (x1 : FVec Ideal S128x128 .f32) (x2 : FVec Ideal S5000x1 .f32)
    (x3 : FVec Ideal S1x128 .f32) : k2_pay2 (F := Ideal) x0 x1 x2 x3 = Cert.Dense.affine x0 x1 x2 x3 := by
  funext j
  obtain ⟨p, q, rfl⟩ : ∃ (p : Fin 5000) (q : Fin 128), j = ix2 p q := ⟨j 0, j 1, eq_ix2 j⟩
  unfold k2_pay2
  refine (Cert.Dense.tile_affine (k2_pay1 (F := Ideal) x0 x1) x2 x3 shapeCasts_S5000x1_S5000x1 broadcasts_S5000x1_S5000x128
    shapeCasts_S1x128_S1x128 broadcasts_S1x128_S5000x128 p q).trans ?_
  rw [tile_prod]
  rfl

/-! ## The input blocks as rows of the arrays -/

/-- Block t of the feature array: its rows 5000 t .. 5000 t + 4999. -/
theorem rows_features (c : Dev nD) (t : Fin cfg2.N) (y : S5000x128.Idx) (i : S50000x128.Idx)
    (h0 : (i 0).val = t.val * 5000 + (y 0).val) (h1 : (i 1).val = (y 1).val) :
    (iblk2 V c 0 t : FVec Ideal S5000x128 .f32) y = (V c main_v60 : S50000x128.Idx → EReal) i := by
  obtain ⟨e00, e01, -⟩ := index_maps t
  unfold iblk2
  rw [View.read_apply]
  show V c main_v60 _ = V c main_v60 _
  congr 1
  funext a
  apply Fin.ext
  match a with
  | ⟨0, _⟩ => show win2_0.index t (0 : Fin 2) * 5000 + 1 * (y 0).val = (i 0).val; rw [e00, h0]; omega
  | ⟨1, _⟩ => show win2_0.index t (1 : Fin 2) * 128 + 1 * (y 1).val = (i 1).val; rw [e01, h1]; omega

/-- The weights' block is the whole matrix at every point. -/
theorem whole_weights (c : Dev nD) (t : Fin cfg2.N) :
    (iblk2 V c 1 t : FVec Ideal S128x128 .f32) = (V c main_arg7 : S128x128.Idx → EReal) := by
  obtain ⟨-, -, e10, e11, -⟩ := index_maps t
  funext y
  unfold iblk2
  rw [View.read_apply]
  show V c main_arg7 _ = V c main_arg7 _
  congr 1
  funext a
  apply Fin.ext
  match a with
  | ⟨0, _⟩ => show win2_1.index t (0 : Fin 2) * 128 + 1 * (y 0).val = (y 0).val; rw [e10]; omega
  | ⟨1, _⟩ => show win2_1.index t (1 : Fin 2) * 128 + 1 * (y 1).val = (y 1).val; rw [e11]; omega

/-- Block t of the column of row scales: its rows 5000 t .. 5000 t + 4999. -/
theorem rows_scales (c : Dev nD) (t : Fin cfg2.N) (y : S5000x1.Idx) (i : S50000x1.Idx)
    (h0 : (i 0).val = t.val * 5000 + (y 0).val) (h1 : (i 1).val = (y 1).val) :
    (iblk2 V c 2 t : FVec Ideal S5000x1 .f32) y = (V c main_v12 : S50000x1.Idx → EReal) i := by
  obtain ⟨-, -, -, -, e20, e21, -⟩ := index_maps t
  unfold iblk2
  rw [View.read_apply]
  show V c main_v12 _ = V c main_v12 _
  congr 1
  funext a
  apply Fin.ext
  match a with
  | ⟨0, _⟩ => show win2_2.index t (0 : Fin 2) * 5000 + 1 * (y 0).val = (i 0).val; rw [e20, h0]; omega
  | ⟨1, _⟩ => show win2_2.index t (1 : Fin 2) * 1 + 1 * (y 1).val = (i 1).val; rw [e21, h1]; omega

/-- The bias row's block is the whole row at every point. -/
theorem whole_bias (c : Dev nD) (t : Fin cfg2.N) :
    (iblk2 V c 3 t : FVec Ideal S1x128 .f32) = (V c main_v61 : S1x128.Idx → EReal) := by
  obtain ⟨-, -, -, -, -, -, e30, e31, -⟩ := index_maps t
  funext y
  unfold iblk2
  rw [View.read_apply]
  show V c main_v61 _ = V c main_v61 _
  congr 1
  funext a
  apply Fin.ext
  match a with
  | ⟨0, _⟩ => show win2_3.index t (0 : Fin 2) * 1 + 1 * (y 0).val = (y 0).val; rw [e30]; omega
  | ⟨1, _⟩ => show win2_3.index t (1 : Fin 2) * 128 + 1 * (y 1).val = (y 1).val; rw [e31]; omega

/-! ## What a point writes back -/

/-- The product of block t of the features with the weights is block t of the product of the whole arrays. -/
theorem prod_rows (c : Dev nD) (t : Fin cfg2.N) (p : Fin 5000) (q : Fin 128) (i : S50000x128.Idx)
    (h0 : (i 0).val = t.val * 5000 + p.val) (h1 : (i 1).val = q.val) :
    Cert.Dense.prod (iblk2 V c 0 t : FVec Ideal S5000x128 .f32) (iblk2 V c 1 t : FVec Ideal S128x128 .f32) (ix2 p q)
      = Cert.Dense.prod (V c main_v60 : S50000x128.Idx → EReal) (V c main_arg7 : S128x128.Idx → EReal) i := by
  obtain ⟨r', q', rfl⟩ : ∃ (r' : Fin 50000) (q' : Fin 128), i = ix2 r' q' := ⟨i 0, i 1, eq_ix2 i⟩
  have hq : q' = q := Fin.ext h1
  subst hq
  rw [Cert.Dense.prod_ix2, Cert.Dense.prod_ix2, whole_weights V c t]
  refine Finset.sum_congr rfl fun k _ => ?_
  exact congrArg (· * _) (rows_features V c t (ix2 p k) (ix2 r' k) h0 rfl)

/-- Point t writes back, into the first output, block t of the product of the whole arrays. -/
theorem flushed_prod (c : Dev nD) (t : Fin cfg2.N) :
    (dat2 V c).flushed 4 t
      = ((cfg2.win 4).blk t).view.read (Elt Ideal)
          (Cert.Dense.prod (V c main_v60 : S50000x128.Idx → EReal) (V c main_arg7 : S128x128.Idx → EReal)) := by
  show (cfg2.win 4).cut (grid2.coords t) ((dat2 V c).after 4 t) = _
  rw [after2_4]
  unfold out2_4
  rw [View.canon_unit_zero offsets]
  simp only [View.ld_unit_zero (S := S5000x128) offsets, View.ld_unit_zero (S := S128x128) offsets]
  rw [tile_prod]
  obtain ⟨-, -, -, -, -, -, -, -, e40, e41, -⟩ := index_maps t
  funext j
  obtain ⟨p, q, rfl⟩ : ∃ (p : Fin 5000) (q : Fin 128), j = ix2 p q := ⟨j 0, j 1, eq_ix2 j⟩
  rw [View.read_apply]
  refine prod_rows V c t p q _ ?_ ?_
  · show win2_4.index t (0 : Fin 2) * 5000 + 1 * p.val = t.val * 5000 + p.val; rw [e40]; omega
  · show win2_4.index t (1 : Fin 2) * 128 + 1 * q.val = q.val; rw [e41]; omega

/-- The affine form of block t of the features and of the scales, with the whole weights and bias, is block t of the
    affine form of the whole arrays: row r of the result reads row r of the features and of the scales only. -/
theorem affine_rows (c : Dev nD) (t : Fin cfg2.N) (p : Fin 5000) (q : Fin 128) (i : S50000x128.Idx)
    (h0 : (i 0).val = t.val * 5000 + p.val) (h1 : (i 1).val = q.val) :
    Cert.Dense.affine (iblk2 V c 0 t : FVec Ideal S5000x128 .f32) (iblk2 V c 1 t : FVec Ideal S128x128 .f32)
        (iblk2 V c 2 t : FVec Ideal S5000x1 .f32) (iblk2 V c 3 t : FVec Ideal S1x128 .f32) (ix2 p q)
      = Cert.Dense.affine (V c main_v60 : S50000x128.Idx → EReal) (V c main_arg7 : S128x128.Idx → EReal)
          (V c main_v12 : S50000x1.Idx → EReal) (V c main_v61 : S1x128.Idx → EReal) i := by
  obtain ⟨r', q', rfl⟩ : ∃ (r' : Fin 50000) (q' : Fin 128), i = ix2 r' q' := ⟨i 0, i 1, eq_ix2 i⟩
  have hq : q' = q := Fin.ext h1
  subst hq
  unfold Cert.Dense.affine
  rw [prod_rows V c t p q' (ix2 r' q') h0 rfl, whole_bias V c t]
  exact congrArg (fun z => _ * z + _) (rows_scales V c t (ix2 p (0 : Fin 1)) (ix2 r' (0 : Fin 1)) h0 rfl)

/-- Point t writes back, into the second output, block t of the affine form of the whole arrays. -/
theorem flushed_affine (c : Dev nD) (t : Fin cfg2.N) :
    (dat2 V c).flushed 5 t
      = ((cfg2.win 5).blk t).view.read (Elt Ideal)
          (Cert.Dense.affine (V c main_v60 : S50000x128.Idx → EReal) (V c main_arg7 : S128x128.Idx → EReal)
            (V c main_v12 : S50000x1.Idx → EReal) (V c main_v61 : S1x128.Idx → EReal)) := by
  show (cfg2.win 5).cut (grid2.coords t) ((dat2 V c).after 5 t) = _
  rw [after2_5]
  unfold out2_5
  rw [View.canon_unit_zero offsets]
  simp only [View.ld_unit_zero (S := S5000x128) offsets, View.ld_unit_zero (S := S128x128) offsets,
    View.ld_unit_zero (S := S5000x1) offsets, View.ld_unit_zero (S := S1x128) offsets]
  rw [tile_affine]
  obtain ⟨-, -, -, -, -, -, -, -, -, -, e50, e51⟩ := index_maps t
  funext j
  obtain ⟨p, q, rfl⟩ : ∃ (p : Fin 5000) (q : Fin 128), j = ix2 p q := ⟨j 0, j 1, eq_ix2 j⟩
  rw [View.read_apply]
  refine affine_rows V c t p q _ ?_ ?_
  · show win2_5.index t (0 : Fin 2) * 5000 + 1 * p.val = t.val * 5000 + p.val; rw [e50]; omega
  · show win2_5.index t (1 : Fin 2) * 128 + 1 * q.val = q.val; rw [e51]; omega

/-! ## The blocks cover the arrays -/

theorem mem_block_prod (t : Fin cfg2.N) (i : S50000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v62_0).slice (win2_4.rect t)).set ↔ _
  rw [View.set_slice_whole, Rect.mem_set_unit]
  exact Iff.rfl

theorem mem_block_affine (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v62_1).slice (win2_5.rect t)).set ↔ _
  rw [View.set_slice_whole, Rect.mem_set_unit]
  exact Iff.rfl

/-! ## The two output arrays after the launch -/

/-- The first output array after the launch: the product of the feature array and the weights as the launch found them. -/
theorem final_prod (c : Dev nD) :
    (dat2 V c).arrAt 4 cfg2.N
      = Cert.Dense.prod (V c main_v60 : S50000x128.Idx → EReal) (V c main_arg7 : S128x128.Idx → EReal) :=
  (dat2 V c).arrAt_eq_of_cover 4 _ (fun t _ => flushed_prod V c t) fun i => by
    have hi0 : (i 0).val < 50000 := (i 0).isLt
    have hi1 : (i 1).val < 128 := (i 1).isLt
    let t : Fin cfg2.N := ⟨(i 0).val / 5000, by rw [show cfg2.N = 10 from N_2]; omega⟩
    obtain ⟨-, -, -, -, -, -, -, -, e40, e41, -⟩ := index_maps t
    refine ⟨t, flush2_4 t, ?_⟩
    rw [mem_block_prod]
    intro a
    match a with
    | ⟨0, _⟩ =>
      show win2_4.index t (0 : Fin 2) * 5000 ≤ (i 0).val ∧ (i 0).val < win2_4.index t (0 : Fin 2) * 5000 + 5000
      rw [e40]; show (i 0).val / 5000 * 5000 ≤ (i 0).val ∧ (i 0).val < (i 0).val / 5000 * 5000 + 5000; omega
    | ⟨1, _⟩ =>
      show win2_4.index t (1 : Fin 2) * 128 ≤ (i 1).val ∧ (i 1).val < win2_4.index t (1 : Fin 2) * 128 + 128
      rw [e41]; omega

/-- The second output array after the launch: the affine form of the four arrays as the launch found them. -/
theorem final_affine (c : Dev nD) :
    (dat2 V c).arrAt 5 cfg2.N
      = Cert.Dense.affine (V c main_v60 : S50000x128.Idx → EReal) (V c main_arg7 : S128x128.Idx → EReal)
          (V c main_v12 : S50000x1.Idx → EReal) (V c main_v61 : S1x128.Idx → EReal) :=
  (dat2 V c).arrAt_eq_of_cover 5 _ (fun t _ => flushed_affine V c t) fun i => by
    have hi0 : (i 0).val < 50000 := (i 0).isLt
    have hi1 : (i 1).val < 128 := (i 1).isLt
    let t : Fin cfg2.N := ⟨(i 0).val / 5000, by rw [show cfg2.N = 10 from N_2]; omega⟩
    obtain ⟨-, -, -, -, -, -, -, -, -, -, e50, e51⟩ := index_maps t
    refine ⟨t, flush2_5 t, ?_⟩
    rw [mem_block_affine]
    intro a
    match a with
    | ⟨0, _⟩ =>
      show win2_5.index t (0 : Fin 2) * 5000 ≤ (i 0).val ∧ (i 0).val < win2_5.index t (0 : Fin 2) * 5000 + 5000
      rw [e50]; show (i 0).val / 5000 * 5000 ≤ (i 0).val ∧ (i 0).val < (i 0).val / 5000 * 5000 + 5000; omega
    | ⟨1, _⟩ =>
      show win2_5.index t (1 : Fin 2) * 128 ≤ (i 1).val ∧ (i 1).val < win2_5.index t (1 : Fin 2) * 128 + 128
      rw [e51]; omega

end Cert.KernelIdeal.Hand.L2

end
-- ==== Proof.LibTRefCasts.lean ====
/-
  The operations of a function that the host program calls (here the clamp at zero) are printed over typed references:
  a value's contents are carried to its buffer's type and back by a cast along an equation between the two spellings of
  one type.  The casts change nothing: there and back is the identity, and each way the contents stay the same up to
  the spelling of their type.
-/
import Idealize.ShloMosaic.Lib.StableHlo

namespace Cert.Casts

open Idealize.ShloMosaic Idealize.ShloMosaic.StableHlo

variable {sig : RefSig} {Val : EltTy → Type} {T : BufTy}

/-- Contents carried to a typed reference's buffer and back are the contents. -/
theorem ofBuf_toBuf (x : TRef sig T) (w : T.Contents Val) : x.ofBuf (x.toBuf w) = w := by
  show cast _ (cast _ w) = w
  rw [cast_cast, cast_eq]

/-- Carrying contents to a typed reference's buffer changes nothing but the spelling of their type. -/
theorem toBuf_heq (x : TRef sig T) (w : T.Contents Val) : HEq (x.toBuf w) w := cast_heq _ _

/-- Carrying a buffer's contents to the value's type changes nothing but the spelling of their type. -/
theorem ofBuf_heq (x : TRef sig T) (u : x.ref.ty.Contents Val) : HEq (x.ofBuf u) u := cast_heq _ _

end Cert.Casts
-- ==== Proof.Region1.lean ====
/-
  Launch 1 of the idealized kernel: one dense layer tiled by rows.

  The launch has ten grid points.  Point t stages rows 5000 t .. 5000 t + 4999 of the feature array [50000, 128] and of
  the column of row scales [50000, 1], the whole weight matrix [128, 128] and the whole bias row [1, 128]; its tile
  stores the product of the staged rows with the weights into the first output block and the product scaled per row
  plus the bias into the second, and both blocks are written back to rows 5000 t .. 5000 t + 4999 of the output arrays.
  A row of a product depends on the same row of the left operand only, so each written block is the corresponding
  block of one function of the WHOLE arrays (`Dense.prod`, `Dense.affine`), and the ten blocks cover the arrays:
  after the launch the two output arrays are those functions of the arrays the launch found.
-/
import proofs.«137481_j50019189129858_1_alg».proof.Proof.Gen.KernelIdeal.Frame
import proofs.«137481_j50019189129858_1_alg».proof.Proof.LibDenseLayer
import Idealize.ShloMosaic.Lib.Pipeline.Value

set_option maxRecDepth 16384

noncomputable section

namespace Cert.KernelIdeal.Hand.L1

open Cert.KernelIdeal Cert.KernelIdeal.Gen
open Idealize.ShloMosaic Idealize.ShloMosaic.TcCoe Idealize.SL.Sem Idealize.ShloMosaic.ValueIdx
open Idealize.ShloMosaic.Pipeline (Dat)

-- the buffers' contents when the launch is entered
variable (V : (c : Dev nD) → (b : Ref sig .tc) → Buf (Elt Ideal) ((c : Thread nD τ).loc b))

theorem offsets : (![0, 0] : Fin 2 → Nat) = fun _ => 0 := funext fun a => by fin_cases a <;> rfl

/-- The index maps over the grid: the row-tiled windows move with the point, the weights and the bias stay. -/
theorem index_maps : ∀ t : Fin cfg1.N,
      win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-! ## The tile's arithmetic -/

/-- The first store's value: the product of the staged rows with the weights. -/
theorem tile_prod (x0 : FVec Ideal S5000x128 .f32) (x1 : FVec Ideal S128x128 .f32) :
    k1_pay1 (F := Ideal) x0 x1 = Cert.Dense.prod x0 x1 := by
  unfold k1_pay1
  rw [shapeCast_self]
  exact Cert.Dense.matmul_eq_prod dot_S5000x128_S128x128_S5000x128_1_0_0_1_n_n rfl rfl rfl rfl rfl rfl x0 x1 bitsLt_bf16_f32

/-- The second store's value: the product scaled per row, plus the bias row. -/
theorem tile_affine (x0 : FVec Ideal S5000x128 .f32) (x1 : FVec Ideal S128x128 .f32) (x2 : FVec Ideal S5000x1 .f32)
    (x3 : FVec Ideal S1x128 .f32) : k1_pay2 (F := Ideal) x0 x1 x2 x3 = Cert.Dense.affine x0 x1 x2 x3 := by
  funext j
  obtain ⟨p, q, rfl⟩ : ∃ (p : Fin 5000) (q : Fin 128), j = ix2 p q := ⟨j 0, j 1, eq_ix2 j⟩
  unfold k1_pay2
  refine (Cert.Dense.tile_affine (k1_pay1 (F := Ideal) x0 x1) x2 x3 shapeCasts_S5000x1_S5000x1 broadcasts_S5000x1_S5000x128
    shapeCasts_S1x128_S1x128 broadcasts_S1x128_S5000x128 p q).trans ?_
  rw [tile_prod]
  rfl

/-! ## The input blocks as rows of the arrays -/

/-- Block t of the feature array: its rows 5000 t .. 5000 t + 4999. -/
theorem rows_features (c : Dev nD) (t : Fin cfg1.N) (y : S5000x128.Idx) (i : S50000x128.Idx)
    (h0 : (i 0).val = t.val * 5000 + (y 0).val) (h1 : (i 1).val = (y 1).val) :
    (iblk1 V c 0 t : FVec Ideal S5000x128 .f32) y = (V c main_v44 : S50000x128.Idx → EReal) i := by
  obtain ⟨e00, e01, -⟩ := index_maps t
  unfold iblk1
  rw [View.read_apply]
  show V c main_v44 _ = V c main_v44 _
  congr 1
  funext a
  apply Fin.ext
  match a with
  | ⟨0, _⟩ => show win1_0.index t (0 : Fin 2) * 5000 + 1 * (y 0).val = (i 0).val; rw [e00, h0]; omega
  | ⟨1, _⟩ => show win1_0.index t (1 : Fin 2) * 128 + 1 * (y 1).val = (i 1).val; rw [e01, h1]; omega

/-- The weights' block is the whole matrix at every point. -/
theorem whole_weights (c : Dev nD) (t : Fin cfg1.N) :
    (iblk1 V c 1 t : FVec Ideal S128x128 .f32) = (V c main_arg5 : S128x128.Idx → EReal) := by
  obtain ⟨-, -, e10, e11, -⟩ := index_maps t
  funext y
  unfold iblk1
  rw [View.read_apply]
  show V c main_arg5 _ = V c main_arg5 _
  congr 1
  funext a
  apply Fin.ext
  match a with
  | ⟨0, _⟩ => show win1_1.index t (0 : Fin 2) * 128 + 1 * (y 0).val = (y 0).val; rw [e10]; omega
  | ⟨1, _⟩ => show win1_1.index t (1 : Fin 2) * 128 + 1 * (y 1).val = (y 1).val; rw [e11]; omega

/-- Block t of the column of row scales: its rows 5000 t .. 5000 t + 4999. -/
theorem rows_scales (c : Dev nD) (t : Fin cfg1.N) (y : S5000x1.Idx) (i : S50000x1.Idx)
    (h0 : (i 0).val = t.val * 5000 + (y 0).val) (h1 : (i 1).val = (y 1).val) :
    (iblk1 V c 2 t : FVec Ideal S5000x1 .f32) y = (V c main_v12 : S50000x1.Idx → EReal) i := by
  obtain ⟨-, -, -, -, e20, e21, -⟩ := index_maps t
  unfold iblk1
  rw [View.read_apply]
  show V c main_v12 _ = V c main_v12 _
  congr 1
  funext a
  apply Fin.ext
  match a with
  | ⟨0, _⟩ => show win1_2.index t (0 : Fin 2) * 5000 + 1 * (y 0).val = (i 0).val; rw [e20, h0]; omega
  | ⟨1, _⟩ => show win1_2.index t (1 : Fin 2) * 1 + 1 * (y 1).val = (i 1).val; rw [e21, h1]; omega

/-- The bias row's block is the whole row at every point. -/
theorem whole_bias (c : Dev nD) (t : Fin cfg1.N) :
    (iblk1 V c 3 t : FVec Ideal S1x128 .f32) = (V c main_v45 : S1x128.Idx → EReal) := by
  obtain ⟨-, -, -, -, -, -, e30, e31, -⟩ := index_maps t
  funext y
  unfold iblk1
  rw [View.read_apply]
  show V c main_v45 _ = V c main_v45 _
  congr 1
  funext a
  apply Fin.ext
  match a with
  | ⟨0, _⟩ => show win1_3.index t (0 : Fin 2) * 1 + 1 * (y 0).val = (y 0).val; rw [e30]; omega
  | ⟨1, _⟩ => show win1_3.index t (1 : Fin 2) * 128 + 1 * (y 1).val = (y 1).val; rw [e31]; omega

/-! ## What a point writes back -/

/-- The product of block t of the features with the weights is block t of the product of the whole arrays. -/
theorem prod_rows (c : Dev nD) (t : Fin cfg1.N) (p : Fin 5000) (q : Fin 128) (i : S50000x128.Idx)
    (h0 : (i 0).val = t.val * 5000 + p.val) (h1 : (i 1).val = q.val) :
    Cert.Dense.prod (iblk1 V c 0 t : FVec Ideal S5000x128 .f32) (iblk1 V c 1 t : FVec Ideal S128x128 .f32) (ix2 p q)
      = Cert.Dense.prod (V c main_v44 : S50000x128.Idx → EReal) (V c main_arg5 : S128x128.Idx → EReal) i := by
  obtain ⟨r', q', rfl⟩ : ∃ (r' : Fin 50000) (q' : Fin 128), i = ix2 r' q' := ⟨i 0, i 1, eq_ix2 i⟩
  have hq : q' = q := Fin.ext h1
  subst hq
  rw [Cert.Dense.prod_ix2, Cert.Dense.prod_ix2, whole_weights V c t]
  refine Finset.sum_congr rfl fun k _ => ?_
  exact congrArg (· * _) (rows_features V c t (ix2 p k) (ix2 r' k) h0 rfl)

/-- Point t writes back, into the first output, block t of the product of the whole arrays. -/
theorem flushed_prod (c : Dev nD) (t : Fin cfg1.N) :
    (dat1 V c).flushed 4 t
      = ((cfg1.win 4).blk t).view.read (Elt Ideal)
          (Cert.Dense.prod (V c main_v44 : S50000x128.Idx → EReal) (V c main_arg5 : S128x128.Idx → EReal)) := by
  show (cfg1.win 4).cut (grid1.coords t) ((dat1 V c).after 4 t) = _
  rw [after1_4]
  unfold out1_4
  rw [View.canon_unit_zero offsets]
  simp only [View.ld_unit_zero (S := S5000x128) offsets, View.ld_unit_zero (S := S128x128) offsets]
  rw [tile_prod]
  obtain ⟨-, -, -, -, -, -, -, -, e40, e41, -⟩ := index_maps t
  funext j
  obtain ⟨p, q, rfl⟩ : ∃ (p : Fin 5000) (q : Fin 128), j = ix2 p q := ⟨j 0, j 1, eq_ix2 j⟩
  rw [View.read_apply]
  refine prod_rows V c t p q _ ?_ ?_
  · show win1_4.index t (0 : Fin 2) * 5000 + 1 * p.val = t.val * 5000 + p.val; rw [e40]; omega
  · show win1_4.index t (1 : Fin 2) * 128 + 1 * q.val = q.val; rw [e41]; omega

/-- The affine form of block t of the features and of the scales, with the whole weights and bias, is block t of the
    affine form of the whole arrays: row r of the result reads row r of the features and of the scales only. -/
theorem affine_rows (c : Dev nD) (t : Fin cfg1.N) (p : Fin 5000) (q : Fin 128) (i : S50000x128.Idx)
    (h0 : (i 0).val = t.val * 5000 + p.val) (h1 : (i 1).val = q.val) :
    Cert.Dense.affine (iblk1 V c 0 t : FVec Ideal S5000x128 .f32) (iblk1 V c 1 t : FVec Ideal S128x128 .f32)
        (iblk1 V c 2 t : FVec Ideal S5000x1 .f32) (iblk1 V c 3 t : FVec Ideal S1x128 .f32) (ix2 p q)
      = Cert.Dense.affine (V c main_v44 : S50000x128.Idx → EReal) (V c main_arg5 : S128x128.Idx → EReal)
          (V c main_v12 : S50000x1.Idx → EReal) (V c main_v45 : S1x128.Idx → EReal) i := by
  obtain ⟨r', q', rfl⟩ : ∃ (r' : Fin 50000) (q' : Fin 128), i = ix2 r' q' := ⟨i 0, i 1, eq_ix2 i⟩
  have hq : q' = q := Fin.ext h1
  subst hq
  unfold Cert.Dense.affine
  rw [prod_rows V c t p q' (ix2 r' q') h0 rfl, whole_bias V c t]
  exact congrArg (fun z => _ * z + _) (rows_scales V c t (ix2 p (0 : Fin 1)) (ix2 r' (0 : Fin 1)) h0 rfl)

/-- Point t writes back, into the second output, block t of the affine form of the whole arrays. -/
theorem flushed_affine (c : Dev nD) (t : Fin cfg1.N) :
    (dat1 V c).flushed 5 t
      = ((cfg1.win 5).blk t).view.read (Elt Ideal)
          (Cert.Dense.affine (V c main_v44 : S50000x128.Idx → EReal) (V c main_arg5 : S128x128.Idx → EReal)
            (V c main_v12 : S50000x1.Idx → EReal) (V c main_v45 : S1x128.Idx → EReal)) := by
  show (cfg1.win 5).cut (grid1.coords t) ((dat1 V c).after 5 t) = _
  rw [after1_5]
  unfold out1_5
  rw [View.canon_unit_zero offsets]
  simp only [View.ld_unit_zero (S := S5000x128) offsets, View.ld_unit_zero (S := S128x128) offsets,
    View.ld_unit_zero (S := S5000x1) offsets, View.ld_unit_zero (S := S1x128) offsets]
  rw [tile_affine]
  obtain ⟨-, -, -, -, -, -, -, -, -, -, e50, e51⟩ := index_maps t
  funext j
  obtain ⟨p, q, rfl⟩ : ∃ (p : Fin 5000) (q : Fin 128), j = ix2 p q := ⟨j 0, j 1, eq_ix2 j⟩
  rw [View.read_apply]
  refine affine_rows V c t p q _ ?_ ?_
  · show win1_5.index t (0 : Fin 2) * 5000 + 1 * p.val = t.val * 5000 + p.val; rw [e50]; omega
  · show win1_5.index t (1 : Fin 2) * 128 + 1 * q.val = q.val; rw [e51]; omega

/-! ## The blocks cover the arrays -/

theorem mem_block_prod (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v46_0).slice (win1_4.rect t)).set ↔ _
  rw [View.set_slice_whole, Rect.mem_set_unit]
  exact Iff.rfl

theorem mem_block_affine (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v46_1).slice (win1_5.rect t)).set ↔ _
  rw [View.set_slice_whole, Rect.mem_set_unit]
  exact Iff.rfl

/-! ## The two output arrays after the launch -/

/-- The first output array after the launch: the product of the feature array and the weights as the launch found them. -/
theorem final_prod (c : Dev nD) :
    (dat1 V c).arrAt 4 cfg1.N
      = Cert.Dense.prod (V c main_v44 : S50000x128.Idx → EReal) (V c main_arg5 : S128x128.Idx → EReal) :=
  (dat1 V c).arrAt_eq_of_cover 4 _ (fun t _ => flushed_prod V c t) fun i => by
    have hi0 : (i 0).val < 50000 := (i 0).isLt
    have hi1 : (i 1).val < 128 := (i 1).isLt
    let t : Fin cfg1.N := ⟨(i 0).val / 5000, by rw [show cfg1.N = 10 from N_1]; omega⟩
    obtain ⟨-, -, -, -, -, -, -, -, e40, e41, -⟩ := index_maps t
    refine ⟨t, flush1_4 t, ?_⟩
    rw [mem_block_prod]
    intro a
    match a with
    | ⟨0, _⟩ =>
      show win1_4.index t (0 : Fin 2) * 5000 ≤ (i 0).val ∧ (i 0).val < win1_4.index t (0 : Fin 2) * 5000 + 5000
      rw [e40]; show (i 0).val / 5000 * 5000 ≤ (i 0).val ∧ (i 0).val < (i 0).val / 5000 * 5000 + 5000; omega
    | ⟨1, _⟩ =>
      show win1_4.index t (1 : Fin 2) * 128 ≤ (i 1).val ∧ (i 1).val < win1_4.index t (1 : Fin 2) * 128 + 128
      rw [e41]; omega

/-- The second output array after the launch: the affine form of the four arrays as the launch found them. -/
theorem final_affine (c : Dev nD) :
    (dat1 V c).arrAt 5 cfg1.N
      = Cert.Dense.affine (V c main_v44 : S50000x128.Idx → EReal) (V c main_arg5 : S128x128.Idx → EReal)
          (V c main_v12 : S50000x1.Idx → EReal) (V c main_v45 : S1x128.Idx → EReal) :=
  (dat1 V c).arrAt_eq_of_cover 5 _ (fun t _ => flushed_affine V c t) fun i => by
    have hi0 : (i 0).val < 50000 := (i 0).isLt
    have hi1 : (i 1).val < 128 := (i 1).isLt
    let t : Fin cfg1.N := ⟨(i 0).val / 5000, by rw [show cfg1.N = 10 from N_1]; omega⟩
    obtain ⟨-, -, -, -, -, -, -, -, -, -, e50, e51⟩ := index_maps t
    refine ⟨t, flush1_5 t, ?_⟩
    rw [mem_block_affine]
    intro a
    match a with
    | ⟨0, _⟩ =>
      show win1_5.index t (0 : Fin 2) * 5000 ≤ (i 0).val ∧ (i 0).val < win1_5.index t (0 : Fin 2) * 5000 + 5000
      rw [e50]; show (i 0).val / 5000 * 5000 ≤ (i 0).val ∧ (i 0).val < (i 0).val / 5000 * 5000 + 5000; omega
    | ⟨1, _⟩ =>
      show win1_5.index t (1 : Fin 2) * 128 ≤ (i 1).val ∧ (i 1).val < win1_5.index t (1 : Fin 2) * 128 + 128
      rw [e51]; omega

end Cert.KernelIdeal.Hand.L1

end
-- ==== Proof.Region0.lean ====
/-
  Launch 0 of the idealized kernel: one dense layer tiled by rows.

  The launch has ten grid points.  Point t stages rows 5000 t .. 5000 t + 4999 of the feature array [50000, 128] and of
  the column of row scales [50000, 1], the whole weight matrix [128, 128] and the whole bias row [1, 128]; its tile
  stores the product of the staged rows with the weights into the first output block and the product scaled per row
  plus the bias into the second, and both blocks are written back to rows 5000 t .. 5000 t + 4999 of the output arrays.
  A row of a product depends on the same row of the left operand only, so each written block is the corresponding
  block of one function of the WHOLE arrays (`Dense.prod`, `Dense.affine`), and the ten blocks cover the arrays:
  after the launch the two output arrays are those functions of the arrays the launch found.
-/
import proofs.«137481_j50019189129858_1_alg».proof.Proof.Gen.KernelIdeal.Frame
import proofs.«137481_j50019189129858_1_alg».proof.Proof.LibDenseLayer
import Idealize.ShloMosaic.Lib.Pipeline.Value

set_option maxRecDepth 16384

noncomputable section

namespace Cert.KernelIdeal.Hand.L0

open Cert.KernelIdeal Cert.KernelIdeal.Gen
open Idealize.ShloMosaic Idealize.ShloMosaic.TcCoe Idealize.SL.Sem Idealize.ShloMosaic.ValueIdx
open Idealize.ShloMosaic.Pipeline (Dat)

-- the buffers' contents when the launch is entered
variable (V : (c : Dev nD) → (b : Ref sig .tc) → Buf (Elt Ideal) ((c : Thread nD τ).loc b))

theorem offsets : (![0, 0] : Fin 2 → Nat) = fun _ => 0 := funext fun a => by fin_cases a <;> rfl

/-- The index maps over the grid: the row-tiled windows move with the point, the weights and the bias stay. -/
theorem index_maps : ∀ t : Fin cfg0.N,
      win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-! ## The tile's arithmetic -/

/-- The first store's value: the product of the staged rows with the weights. -/
theorem tile_prod (x0 : FVec Ideal S5000x128 .f32) (x1 : FVec Ideal S128x128 .f32) :
    k0_pay1 (F := Ideal) x0 x1 = Cert.Dense.prod x0 x1 := by
  unfold k0_pay1
  exact Cert.Dense.matmul_eq_prod dot_S5000x128_S128x128_S5000x128_1_0_0_1_n_n rfl rfl rfl rfl rfl rfl x0 x1 bitsLt_bf16_f32

/-- The second store's value: the product scaled per row, plus the bias row. -/
theorem tile_affine (x0 : FVec Ideal S5000x128 .f32) (x1 : FVec Ideal S128x128 .f32) (x2 : FVec Ideal S5000x1 .f32)
    (x3 : FVec Ideal S1x128 .f32) : k0_pay2 (F := Ideal) x0 x1 x2 x3 = Cert.Dense.affine x0 x1 x2 x3 := by
  funext j
  obtain ⟨p, q, rfl⟩ : ∃ (p : Fin 5000) (q : Fin 128), j = ix2 p q := ⟨j 0, j 1, eq_ix2 j⟩
  unfold k0_pay2
  refine (Cert.Dense.tile_affine (k0_pay1 (F := Ideal) x0 x1) x2 x3 shapeCasts_S5000x1_S5000x1 broadcasts_S5000x1_S5000x128
    shapeCasts_S1x128_S1x128 broadcasts_S1x128_S5000x128 p q).trans ?_
  rw [tile_prod]
  rfl

/-! ## The input blocks as rows of the arrays -/

/-- Block t of the feature array: its rows 5000 t .. 5000 t + 4999. -/
theorem rows_features (c : Dev nD) (t : Fin cfg0.N) (y : S5000x128.Idx) (i : S50000x128.Idx)
    (h0 : (i 0).val = t.val * 5000 + (y 0).val) (h1 : (i 1).val = (y 1).val) :
    (iblk0 V c 0 t : FVec Ideal S5000x128 .f32) y = (V c main_arg0 : S50000x128.Idx → EReal) i := by
  obtain ⟨e00, e01, -⟩ := index_maps t
  unfold iblk0
  rw [View.read_apply]
  show V c main_arg0 _ = V c main_arg0 _
  congr 1
  funext a
  apply Fin.ext
  match a with
  | ⟨0, _⟩ => show win0_0.index t (0 : Fin 2) * 5000 + 1 * (y 0).val = (i 0).val; rw [e00, h0]; omega
  | ⟨1, _⟩ => show win0_0.index t (1 : Fin 2) * 128 + 1 * (y 1).val = (i 1).val; rw [e01, h1]; omega

/-- The weights' block is the whole matrix at every point. -/
theorem whole_weights (c : Dev nD) (t : Fin cfg0.N) :
    (iblk0 V c 1 t : FVec Ideal S128x128 .f32) = (V c main_arg3 : S128x128.Idx → EReal) := by
  obtain ⟨-, -, e10, e11, -⟩ := index_maps t
  funext y
  unfold iblk0
  rw [View.read_apply]
  show V c main_arg3 _ = V c main_arg3 _
  congr 1
  funext a
  apply Fin.ext
  match a with
  | ⟨0, _⟩ => show win0_1.index t (0 : Fin 2) * 128 + 1 * (y 0).val = (y 0).val; rw [e10]; omega
  | ⟨1, _⟩ => show win0_1.index t (1 : Fin 2) * 128 + 1 * (y 1).val = (y 1).val; rw [e11]; omega

/-- Block t of the column of row scales: its rows 5000 t .. 5000 t + 4999. -/
theorem rows_scales (c : Dev nD) (t : Fin cfg0.N) (y : S5000x1.Idx) (i : S50000x1.Idx)
    (h0 : (i 0).val = t.val * 5000 + (y 0).val) (h1 : (i 1).val = (y 1).val) :
    (iblk0 V c 2 t : FVec Ideal S5000x1 .f32) y = (V c main_v12 : S50000x1.Idx → EReal) i := by
  obtain ⟨-, -, -, -, e20, e21, -⟩ := index_maps t
  unfold iblk0
  rw [View.read_apply]
  show V c main_v12 _ = V c main_v12 _
  congr 1
  funext a
  apply Fin.ext
  match a with
  | ⟨0, _⟩ => show win0_2.index t (0 : Fin 2) * 5000 + 1 * (y 0).val = (i 0).val; rw [e20, h0]; omega
  | ⟨1, _⟩ => show win0_2.index t (1 : Fin 2) * 1 + 1 * (y 1).val = (i 1).val; rw [e21, h1]; omega

/-- The bias row's block is the whole row at every point. -/
theorem whole_bias (c : Dev nD) (t : Fin cfg0.N) :
    (iblk0 V c 3 t : FVec Ideal S1x128 .f32) = (V c main_v29 : S1x128.Idx → EReal) := by
  obtain ⟨-, -, -, -, -, -, e30, e31, -⟩ := index_maps t
  funext y
  unfold iblk0
  rw [View.read_apply]
  show V c main_v29 _ = V c main_v29 _
  congr 1
  funext a
  apply Fin.ext
  match a with
  | ⟨0, _⟩ => show win0_3.index t (0 : Fin 2) * 1 + 1 * (y 0).val = (y 0).val; rw [e30]; omega
  | ⟨1, _⟩ => show win0_3.index t (1 : Fin 2) * 128 + 1 * (y 1).val = (y 1).val; rw [e31]; omega

/-! ## What a point writes back -/

/-- The product of block t of the features with the weights is block t of the product of the whole arrays. -/
theorem prod_rows (c : Dev nD) (t : Fin cfg0.N) (p : Fin 5000) (q : Fin 128) (i : S50000x128.Idx)
    (h0 : (i 0).val = t.val * 5000 + p.val) (h1 : (i 1).val = q.val) :
    Cert.Dense.prod (iblk0 V c 0 t : FVec Ideal S5000x128 .f32) (iblk0 V c 1 t : FVec Ideal S128x128 .f32) (ix2 p q)
      = Cert.Dense.prod (V c main_arg0 : S50000x128.Idx → EReal) (V c main_arg3 : S128x128.Idx → EReal) i := by
  obtain ⟨r', q', rfl⟩ : ∃ (r' : Fin 50000) (q' : Fin 128), i = ix2 r' q' := ⟨i 0, i 1, eq_ix2 i⟩
  have hq : q' = q := Fin.ext h1
  subst hq
  rw [Cert.Dense.prod_ix2, Cert.Dense.prod_ix2, whole_weights V c t]
  refine Finset.sum_congr rfl fun k _ => ?_
  exact congrArg (· * _) (rows_features V c t (ix2 p k) (ix2 r' k) h0 rfl)

/-- Point t writes back, into the first output, block t of the product of the whole arrays. -/
theorem flushed_prod (c : Dev nD) (t : Fin cfg0.N) :
    (dat0 V c).flushed 4 t
      = ((cfg0.win 4).blk t).view.read (Elt Ideal)
          (Cert.Dense.prod (V c main_arg0 : S50000x128.Idx → EReal) (V c main_arg3 : S128x128.Idx → EReal)) := by
  show (cfg0.win 4).cut (grid0.coords t) ((dat0 V c).after 4 t) = _
  rw [after0_4]
  unfold out0_4
  rw [View.canon_unit_zero offsets]
  simp only [View.ld_unit_zero (S := S5000x128) offsets, View.ld_unit_zero (S := S128x128) offsets]
  rw [tile_prod]
  obtain ⟨-, -, -, -, -, -, -, -, e40, e41, -⟩ := index_maps t
  funext j
  obtain ⟨p, q, rfl⟩ : ∃ (p : Fin 5000) (q : Fin 128), j = ix2 p q := ⟨j 0, j 1, eq_ix2 j⟩
  rw [View.read_apply]
  refine prod_rows V c t p q _ ?_ ?_
  · show win0_4.index t (0 : Fin 2) * 5000 + 1 * p.val = t.val * 5000 + p.val; rw [e40]; omega
  · show win0_4.index t (1 : Fin 2) * 128 + 1 * q.val = q.val; rw [e41]; omega

/-- The affine form of block t of the features and of the scales, with the whole weights and bias, is block t of the
    affine form of the whole arrays: row r of the result reads row r of the features and of the scales only. -/
theorem affine_rows (c : Dev nD) (t : Fin cfg0.N) (p : Fin 5000) (q : Fin 128) (i : S50000x128.Idx)
    (h0 : (i 0).val = t.val * 5000 + p.val) (h1 : (i 1).val = q.val) :
    Cert.Dense.affine (iblk0 V c 0 t : FVec Ideal S5000x128 .f32) (iblk0 V c 1 t : FVec Ideal S128x128 .f32)
        (iblk0 V c 2 t : FVec Ideal S5000x1 .f32) (iblk0 V c 3 t : FVec Ideal S1x128 .f32) (ix2 p q)
      = Cert.Dense.affine (V c main_arg0 : S50000x128.Idx → EReal) (V c main_arg3 : S128x128.Idx → EReal)
          (V c main_v12 : S50000x1.Idx → EReal) (V c main_v29 : S1x128.Idx → EReal) i := by
  obtain ⟨r', q', rfl⟩ : ∃ (r' : Fin 50000) (q' : Fin 128), i = ix2 r' q' := ⟨i 0, i 1, eq_ix2 i⟩
  have hq : q' = q := Fin.ext h1
  subst hq
  unfold Cert.Dense.affine
  rw [prod_rows V c t p q' (ix2 r' q') h0 rfl, whole_bias V c t]
  exact congrArg (fun z => _ * z + _) (rows_scales V c t (ix2 p (0 : Fin 1)) (ix2 r' (0 : Fin 1)) h0 rfl)

/-- Point t writes back, into the second output, block t of the affine form of the whole arrays. -/
theorem flushed_affine (c : Dev nD) (t : Fin cfg0.N) :
    (dat0 V c).flushed 5 t
      = ((cfg0.win 5).blk t).view.read (Elt Ideal)
          (Cert.Dense.affine (V c main_arg0 : S50000x128.Idx → EReal) (V c main_arg3 : S128x128.Idx → EReal)
            (V c main_v12 : S50000x1.Idx → EReal) (V c main_v29 : S1x128.Idx → EReal)) := by
  show (cfg0.win 5).cut (grid0.coords t) ((dat0 V c).after 5 t) = _
  rw [after0_5]
  unfold out0_5
  rw [View.canon_unit_zero offsets]
  simp only [View.ld_unit_zero (S := S5000x128) offsets, View.ld_unit_zero (S := S128x128) offsets,
    View.ld_unit_zero (S := S5000x1) offsets, View.ld_unit_zero (S := S1x128) offsets]
  rw [tile_affine]
  obtain ⟨-, -, -, -, -, -, -, -, -, -, e50, e51⟩ := index_maps t
  funext j
  obtain ⟨p, q, rfl⟩ : ∃ (p : Fin 5000) (q : Fin 128), j = ix2 p q := ⟨j 0, j 1, eq_ix2 j⟩
  rw [View.read_apply]
  refine affine_rows V c t p q _ ?_ ?_
  · show win0_5.index t (0 : Fin 2) * 5000 + 1 * p.val = t.val * 5000 + p.val; rw [e50]; omega
  · show win0_5.index t (1 : Fin 2) * 128 + 1 * q.val = q.val; rw [e51]; omega

/-! ## The blocks cover the arrays -/

theorem mem_block_prod (t : Fin cfg0.N) (i : S50000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v30_0).slice (win0_4.rect t)).set ↔ _
  rw [View.set_slice_whole, Rect.mem_set_unit]
  exact Iff.rfl

theorem mem_block_affine (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v30_1).slice (win0_5.rect t)).set ↔ _
  rw [View.set_slice_whole, Rect.mem_set_unit]
  exact Iff.rfl

/-! ## The two output arrays after the launch -/

/-- The first output array after the launch: the product of the feature array and the weights as the launch found them. -/
theorem final_prod (c : Dev nD) :
    (dat0 V c).arrAt 4 cfg0.N
      = Cert.Dense.prod (V c main_arg0 : S50000x128.Idx → EReal) (V c main_arg3 : S128x128.Idx → EReal) :=
  (dat0 V c).arrAt_eq_of_cover 4 _ (fun t _ => flushed_prod V c t) fun i => by
    have hi0 : (i 0).val < 50000 := (i 0).isLt
    have hi1 : (i 1).val < 128 := (i 1).isLt
    let t : Fin cfg0.N := ⟨(i 0).val / 5000, by rw [show cfg0.N = 10 from N_0]; omega⟩
    obtain ⟨-, -, -, -, -, -, -, -, e40, e41, -⟩ := index_maps t
    refine ⟨t, flush0_4 t, ?_⟩
    rw [mem_block_prod]
    intro a
    match a with
    | ⟨0, _⟩ =>
      show win0_4.index t (0 : Fin 2) * 5000 ≤ (i 0).val ∧ (i 0).val < win0_4.index t (0 : Fin 2) * 5000 + 5000
      rw [e40]; show (i 0).val / 5000 * 5000 ≤ (i 0).val ∧ (i 0).val < (i 0).val / 5000 * 5000 + 5000; omega
    | ⟨1, _⟩ =>
      show win0_4.index t (1 : Fin 2) * 128 ≤ (i 1).val ∧ (i 1).val < win0_4.index t (1 : Fin 2) * 128 + 128
      rw [e41]; omega

/-- The second output array after the launch: the affine form of the four arrays as the launch found them. -/
theorem final_affine (c : Dev nD) :
    (dat0 V c).arrAt 5 cfg0.N
      = Cert.Dense.affine (V c main_arg0 : S50000x128.Idx → EReal) (V c main_arg3 : S128x128.Idx → EReal)
          (V c main_v12 : S50000x1.Idx → EReal) (V c main_v29 : S1x128.Idx → EReal) :=
  (dat0 V c).arrAt_eq_of_cover 5 _ (fun t _ => flushed_affine V c t) fun i => by
    have hi0 : (i 0).val < 50000 := (i 0).isLt
    have hi1 : (i 1).val < 128 := (i 1).isLt
    let t : Fin cfg0.N := ⟨(i 0).val / 5000, by rw [show cfg0.N = 10 from N_0]; omega⟩
    obtain ⟨-, -, -, -, -, -, -, -, -, -, e50, e51⟩ := index_maps t
    refine ⟨t, flush0_5 t, ?_⟩
    rw [mem_block_affine]
    intro a
    match a with
    | ⟨0, _⟩ =>
      show win0_5.index t (0 : Fin 2) * 5000 ≤ (i 0).val ∧ (i 0).val < win0_5.index t (0 : Fin 2) * 5000 + 5000
      rw [e50]; show (i 0).val / 5000 * 5000 ≤ (i 0).val ∧ (i 0).val < (i 0).val / 5000 * 5000 + 5000; omega
    | ⟨1, _⟩ =>
      show win0_5.index t (1 : Fin 2) * 128 ≤ (i 1).val ∧ (i 1).val < win0_5.index t (1 : Fin 2) * 128 + 128
      rw [e51]; omega

end Cert.KernelIdeal.Hand.L0

end
-- ==== Proof.Boundary1.lean ====
/-
  The kernel's buffers after its first stretch of host operations, read as stages of the reference.

  Before the first launch the kernel's program computes, from the edge list, exactly what the reference computes: the
  source and target node of every edge, the inverse square root of every node's degree (self-loop included), the
  per-node scale deg^-1 and the per-edge coefficient deg^-1/2(src) deg^-1/2(dst).  It lays the scale, the
  coefficients and the first bias out as a column, a column and a row by RESHAPES, where the reference uses
  broadcast_in_dim; these are the same arrays.  No argument is written.
-/
import proofs.«137481_j50019189129858_1_alg».proof.Proof.Gen.KernelIdeal.Frame
import proofs.«137481_j50019189129858_1_alg».proof.Proof.Gen.ReferenceIdeal.Read
import proofs.«137481_j50019189129858_1_alg».proof.Proof.LibDenseLayer

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The source node of every edge. -/
theorem at1_src (c : Dev nD) : W1 m ρ c (Proc.devRef .tc main_v1) = Cert.ReferenceIdeal.Read.val_main_v1 (F := Ideal) (m ((c : Thread nD τ).loc main_arg1)) := by
  show StableHlo.after hostOps0 (W0 m ρ c) (Proc.devRef .tc main_v1) = _
  after_results
  rfl

/-- The target node of every edge. -/
theorem at1_dst (c : Dev nD) : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  after_results
  rfl

/-- The per-node scale deg^-1 as a column: the kernel's reshape is the reference's broadcast_in_dim. -/
theorem at1_scale (c : Dev nD) : W1 m ρ c (Proc.devRef .tc main_v12) = Cert.ReferenceIdeal.Read.val_main_v41 (F := Ideal) (m ((c : Thread nD τ).loc main_arg1)) := by
  show StableHlo.after hostOps0 (W0 m ρ c) (Proc.devRef .tc main_v12) = _
  after_results_simp
  refine (Cert.Dense.column_cast_eq_bcast _ _ Cert.ReferenceIdeal.Gen.bcast_S50000_S50000x1_0).trans ?_
  unfold Cert.ReferenceIdeal.Read.val_main_v41 Cert.ReferenceIdeal.Read.val_main_v40
  refine congrArg _ (congrArg₂ mulf ?_ ?_) <;> rfl

/-- The per-edge coefficient as a column: the kernel's reshape is the reference's broadcast_in_dim. -/
theorem at1_coef (c : Dev nD) : W1 m ρ c (Proc.devRef .tc main_v28) = Cert.ReferenceIdeal.Read.val_main_v27 (F := Ideal) (m ((c : Thread nD τ).loc main_arg1)) := by
  show StableHlo.after hostOps0 (W0 m ρ c) (Proc.devRef .tc main_v28) = _
  after_results_simp
  refine (Cert.Dense.column_cast_eq_bcast _ _ Cert.ReferenceIdeal.Gen.bcast_S800000_S800000x1_0).trans ?_
  unfold Cert.ReferenceIdeal.Read.val_main_v27 Cert.ReferenceIdeal.Read.val_main_v26
  refine congrArg _ (congrArg₂ mulf ?_ ?_) <;> rfl

/-- The first layer's bias as a row: the kernel's reshape is the reference's broadcast_in_dim. -/
theorem at1_bias (c : Dev nD) : W1 m ρ c (Proc.devRef .tc main_v29) = Cert.ReferenceIdeal.Read.val_main_v45 (F := Ideal) (m ((c : Thread nD τ).loc main_arg4)) := by
  show StableHlo.after hostOps0 (W0 m ρ c) (Proc.devRef .tc main_v29) = _
  after_results
  exact Cert.Dense.row_cast_eq_bcast _ _ Cert.ReferenceIdeal.Gen.bcast_S128_S1x128_1

/-- Argument 0 is as launched. -/
theorem at1_arg0 (c : Dev nD) : W1 m ρ c (Proc.devRef .tc main_arg0) = (m ((c : Thread nD τ).loc main_arg0)) := by
  show StableHlo.after hostOps0 (W0 m ρ c) (Proc.devRef .tc main_arg0) = _
  after_results

/-- Argument 2 is as launched. -/
theorem at1_arg2 (c : Dev nD) : W1 m ρ c (Proc.devRef .tc main_arg2) = (m ((c : Thread nD τ).loc main_arg2)) := by
  show StableHlo.after hostOps0 (W0 m ρ c) (Proc.devRef .tc main_arg2) = _
  after_results

/-- Argument 3 is as launched. -/
theorem at1_arg3 (c : Dev nD) : W1 m ρ c (Proc.devRef .tc main_arg3) = (m ((c : Thread nD τ).loc main_arg3)) := by
  show StableHlo.after hostOps0 (W0 m ρ c) (Proc.devRef .tc main_arg3) = _
  after_results

/-- Argument 5 is as launched. -/
theorem at1_arg5 (c : Dev nD) : W1 m ρ c (Proc.devRef .tc main_arg5) = (m ((c : Thread nD τ).loc main_arg5)) := by
  show StableHlo.after hostOps0 (W0 m ρ c) (Proc.devRef .tc main_arg5) = _
  after_results

/-- Argument 6 is as launched. -/
theorem at1_arg6 (c : Dev nD) : W1 m ρ c (Proc.devRef .tc main_arg6) = (m ((c : Thread nD τ).loc main_arg6)) := by
  show StableHlo.after hostOps0 (W0 m ρ c) (Proc.devRef .tc main_arg6) = _
  after_results

/-- Argument 7 is as launched. -/
theorem at1_arg7 (c : Dev nD) : W1 m ρ c (Proc.devRef .tc main_arg7) = (m ((c : Thread nD τ).loc main_arg7)) := by
  show StableHlo.after hostOps0 (W0 m ρ c) (Proc.devRef .tc main_arg7) = _
  after_results

/-- Argument 8 is as launched. -/
theorem at1_arg8 (c : Dev nD) : W1 m ρ c (Proc.devRef .tc main_arg8) = (m ((c : Thread nD τ).loc main_arg8)) := by
  show StableHlo.after hostOps0 (W0 m ρ c) (Proc.devRef .tc main_arg8) = _
  after_results

/-- Argument 9 is as launched. -/
theorem at1_arg9 (c : Dev nD) : W1 m ρ c (Proc.devRef .tc main_arg9) = (m ((c : Thread nD τ).loc main_arg9)) := by
  show StableHlo.after hostOps0 (W0 m ρ c) (Proc.devRef .tc main_arg9) = _
  after_results

/-- Argument 10 is as launched. -/
theorem at1_arg10 (c : Dev nD) : W1 m ρ c (Proc.devRef .tc main_arg10) = (m ((c : Thread nD τ).loc main_arg10)) := by
  show StableHlo.after hostOps0 (W0 m ρ c) (Proc.devRef .tc main_arg10) = _
  after_results

end Cert.KernelIdeal.Hand

end
-- ==== Proof.Layer1a.lean ====
/-
  What the first launch leaves, read as stages of the reference.

  Launch 0 finds the node features, the first weights, the scale column and the first bias row as the first host
  stretch left them.  Its first output is the product h W, the reference's dot_general; its second is the affine form
  h W * deg^-1 + b, the reference's self-loop term plus its bias term.  Every other buffer is left as found.
-/
import proofs.«137481_j50019189129858_1_alg».proof.Proof.Gen.KernelIdeal.Frame
import proofs.«137481_j50019189129858_1_alg».proof.Proof.Gen.ReferenceIdeal.Read
import proofs.«137481_j50019189129858_1_alg».proof.Proof.LibDenseLayer
import proofs.«137481_j50019189129858_1_alg».proof.Proof.Region0
import proofs.«137481_j50019189129858_1_alg».proof.Proof.Boundary1

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The launch's first output is the reference's dot_general of the layer's input and weights. -/
theorem at2_prod (c : Dev nD) : W2 m ρ c (Proc.devRef .tc main_v30_0) = Cert.ReferenceIdeal.Read.val_main_v11 (F := Ideal) (m ((c : Thread nD τ).loc main_arg0)) (m ((c : Thread nD τ).loc main_arg3)) := by
  refine (W2_arr m ρ c 4).trans ?_
  rw [L0.final_prod (V1 m ρ) c]
  show Cert.Dense.prod (W1 m ρ c (Proc.devRef .tc main_arg0)) (W1 m ρ c (Proc.devRef .tc main_arg3)) = _
  rw [at1_arg0 m ρ c, at1_arg3 m ρ c]
  exact (Cert.Dense.dotGeneral_eq_prod Cert.ReferenceIdeal.dot_S50000x128_S128x128_S50000x128_1_0_0_1_n_n rfl rfl rfl rfl rfl rfl _ _).symm

/-- The launch's second output is the reference's self-loop term plus its bias term: the product scaled per node by
    deg^-1, plus the bias row laid over the nodes. -/
theorem at2_affine (c : Dev nD) :
    W2 m ρ c (Proc.devRef .tc main_v30_1)
      = (addf (Cert.ReferenceIdeal.Read.val_main_v43 (F := Ideal) (m ((c : Thread nD τ).loc main_arg0)) (m ((c : Thread nD τ).loc main_arg1)) (m ((c : Thread nD τ).loc main_arg3))) (Cert.ReferenceIdeal.Read.val_main_v46 (F := Ideal) (m ((c : Thread nD τ).loc main_arg4))) : FVec Ideal Cert.ReferenceIdeal.S50000x128 .f32) := by
  refine (W2_arr m ρ c 5).trans ?_
  rw [L0.final_affine (V1 m ρ) c]
  show Cert.Dense.affine (W1 m ρ c (Proc.devRef .tc main_arg0)) (W1 m ρ c (Proc.devRef .tc main_arg3))
      (W1 m ρ c (Proc.devRef .tc main_v12)) (W1 m ρ c (Proc.devRef .tc main_v29)) = _
  rw [at1_arg0 m ρ c, at1_arg3 m ρ c, at1_scale m ρ c, at1_bias m ρ c]
  exact Cert.Dense.affine_eq_host Cert.ReferenceIdeal.dot_S50000x128_S128x128_S50000x128_1_0_0_1_n_n rfl rfl rfl rfl rfl rfl _ _ _ _
    Cert.ReferenceIdeal.Gen.bcast_S50000x1_S50000x128_0_1 Cert.ReferenceIdeal.Gen.bcast_S1x128_S50000x128_0_1

theorem at2_src (c : Dev nD) : W2 m ρ c (Proc.devRef .tc main_v1) = Cert.ReferenceIdeal.Read.val_main_v1 (F := Ideal) (m ((c : Thread nD τ).loc main_arg1)) :=
  (W2_of_ne m ρ c main_v1 (by decide)).trans (at1_src m ρ c)

theorem at2_dst (c : Dev nD) : W2 m ρ c (Proc.devRef .tc main_v3) = Cert.ReferenceIdeal.Read.val_main_v3 (F := Ideal) (m ((c : Thread nD τ).loc main_arg1)) :=
  (W2_of_ne m ρ c main_v3 (by decide)).trans (at1_dst m ρ c)

/-- The scale column is an input of the launch: it is left as found. -/
theorem at2_scale (c : Dev nD) : W2 m ρ c (Proc.devRef .tc main_v12) = Cert.ReferenceIdeal.Read.val_main_v41 (F := Ideal) (m ((c : Thread nD τ).loc main_arg1)) :=
  (W2_arr m ρ c 2).trans (((dat0 (V1 m ρ) c).arrAt_in 2 rfl _).trans ((A_eq0 (V1 m ρ) c 2).trans (at1_scale m ρ c)))

theorem at2_coef (c : Dev nD) : W2 m ρ c (Proc.devRef .tc main_v28) = Cert.ReferenceIdeal.Read.val_main_v27 (F := Ideal) (m ((c : Thread nD τ).loc main_arg1)) :=
  (W2_of_ne m ρ c main_v28 (by decide)).trans (at1_coef m ρ c)

theorem at2_arg2 (c : Dev nD) : W2 m ρ c (Proc.devRef .tc main_arg2) = (m ((c : Thread nD τ).loc main_arg2)) :=
  (W2_of_ne m ρ c main_arg2 (by decide)).trans (at1_arg2 m ρ c)

theorem at2_arg5 (c : Dev nD) : W2 m ρ c (Proc.devRef .tc main_arg5) = (m ((c : Thread nD τ).loc main_arg5)) :=
  (W2_of_ne m ρ c main_arg5 (by decide)).trans (at1_arg5 m ρ c)

theorem at2_arg6 (c : Dev nD) : W2 m ρ c (Proc.devRef .tc main_arg6) = (m ((c : Thread nD τ).loc main_arg6)) :=
  (W2_of_ne m ρ c main_arg6 (by decide)).trans (at1_arg6 m ρ c)

theorem at2_arg7 (c : Dev nD) : W2 m ρ c (Proc.devRef .tc main_arg7) = (m ((c : Thread nD τ).loc main_arg7)) :=
  (W2_of_ne m ρ c main_arg7 (by decide)).trans (at1_arg7 m ρ c)

theorem at2_arg8 (c : Dev nD) : W2 m ρ c (Proc.devRef .tc main_arg8) = (m ((c : Thread nD τ).loc main_arg8)) :=
  (W2_of_ne m ρ c main_arg8 (by decide)).trans (at1_arg8 m ρ c)

theorem at2_arg9 (c : Dev nD) : W2 m ρ c (Proc.devRef .tc main_arg9) = (m ((c : Thread nD τ).loc main_arg9)) :=
  (W2_of_ne m ρ c main_arg9 (by decide)).trans (at1_arg9 m ρ c)

theorem at2_arg10 (c : Dev nD) : W2 m ρ c (Proc.devRef .tc main_arg10) = (m ((c : Thread nD τ).loc main_arg10)) :=
  (W2_of_ne m ρ c main_arg10 (by decide)).trans (at1_arg10 m ρ c)

end Cert.KernelIdeal.Hand

end
-- ==== Proof.Layer1b.lean ====
/-
  The host operations after the first launch, read as stages of the reference.

  They gather the product's rows at the edges' sources, weigh them by the edge coefficients, scatter-add them at the
  edges' targets, add the launch's second output, clamp at zero, and reshape the next bias.
-/
import proofs.«137481_j50019189129858_1_alg».proof.Proof.Gen.KernelIdeal.Frame
import proofs.«137481_j50019189129858_1_alg».proof.Proof.Gen.ReferenceIdeal.Read
import proofs.«137481_j50019189129858_1_alg».proof.Proof.LibDenseLayer
import proofs.«137481_j50019189129858_1_alg».proof.Proof.LibTRefCasts
import proofs.«137481_j50019189129858_1_alg».proof.Proof.Layer1a

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The first layer's sum.  The kernel adds the neighbour sum to the launch's second output, (sum) + (self-loop
    term + bias); the reference adds the self-loop term and then the bias, ((sum) + self-loop term) + bias.  Sums of
    extended reals agree whatever the grouping.  The neighbour sum itself is the same gather, product and scatter-add of
    equal arrays on both sides: opening the reference's stages down to the arrays already matched shows it. -/
theorem at3_sum (c : Dev nD) : W3 m ρ c (Proc.devRef .tc main_v43) = Cert.ReferenceIdeal.Read.val_main_v47 (F := Ideal) (m ((c : Thread nD τ).loc main_arg0)) (m ((c : Thread nD τ).loc main_arg1)) (m ((c : Thread nD τ).loc main_arg3)) (m ((c : Thread nD τ).loc main_arg4)) := by
  show StableHlo.after hostOps1 (W2 m ρ c) (Proc.devRef .tc main_v43) = _
  after_results_simp
  rw [at2_prod m ρ c, at2_affine m ρ c, at2_src m ρ c, at2_dst m ρ c, at2_coef m ρ c]
  rw [Cert.Dense.addf_assoc]
  unfold Cert.ReferenceIdeal.Read.val_main_v47 Cert.ReferenceIdeal.Read.val_main_v44
  unfold Cert.ReferenceIdeal.Read.val_main_v39 Cert.ReferenceIdeal.Read.val_main_v37
  unfold Cert.ReferenceIdeal.Read.val_main_cst_7 Cert.ReferenceIdeal.Read.val_main_v38
  unfold Cert.ReferenceIdeal.Read.val_main_v36 Cert.ReferenceIdeal.Read.val_main_v34
  unfold Cert.ReferenceIdeal.Read.val_main_v33 Cert.ReferenceIdeal.Read.val_main_v32
  unfold Cert.ReferenceIdeal.Read.val_main_v29 Cert.ReferenceIdeal.Read.val_main_v28
  unfold Cert.ReferenceIdeal.Read.val_main_c_5 Cert.ReferenceIdeal.Read.val_main_v31
  unfold Cert.ReferenceIdeal.Read.val_main_v30 Cert.ReferenceIdeal.Read.val_main_c_6
  unfold Cert.ReferenceIdeal.Read.val_main_v35
  rfl

/-- The first layer's output: the sum clamped at zero, as in the reference.  The clamp is a called function whose
    operations carry their values through casts between two spellings of one type; peeled off, both sides are the
    maximum of the same sum and the same array of zeros. -/
theorem at5_h (c : Dev nD) : W5 m ρ c (Proc.devRef .tc main_v44) = Cert.ReferenceIdeal.Read.val_main_v48 (F := Ideal) (m ((c : Thread nD τ).loc main_arg0)) (m ((c : Thread nD τ).loc main_arg1)) (m ((c : Thread nD τ).loc main_arg3)) (m ((c : Thread nD τ).loc main_arg4)) := by
  have hsum := at3_sum m ρ c
  show StableHlo.after hostOps1_2 (StableHlo.after hostOps1_1 (W3 m ρ c)) (Proc.devRef .tc main_v44) = _
  generalize W3 m ρ c = Vsum at hsum ⊢
  after_results_simp
  rw [hsum]
  unfold Cert.ReferenceIdeal.Read.val_main_v48 Cert.ReferenceIdeal.Read.val_main_call0_v0
  unfold Cert.ReferenceIdeal.Read.val_main_call0_cst
  rw [Cert.Casts.ofBuf_toBuf, Cert.Casts.ofBuf_toBuf]
  refine eq_of_heq ((Cert.Casts.toBuf_heq _ _).trans (heq_of_eq ?_))
  exact congrArg₂ maximumf (eq_of_heq (Cert.Casts.ofBuf_heq _ _)) rfl

/-- The next layer's bias as a row: the kernel's reshape is the reference's broadcast_in_dim. -/
theorem at5_bias (c : Dev nD) : W5 m ρ c (Proc.devRef .tc main_v45) = Cert.ReferenceIdeal.Read.val_main_v83 (F := Ideal) (m ((c : Thread nD τ).loc main_arg6)) := by
  show StableHlo.after hostOps1_2 (StableHlo.after hostOps1_1 (StableHlo.after hostOps1 (W2 m ρ c))) (Proc.devRef .tc main_v45) = _
  after_results_simp
  rw [at2_arg6 m ρ c]
  exact Cert.Dense.row_cast_eq_bcast _ _ Cert.ReferenceIdeal.Gen.bcast_S128_S1x128_1

theorem at5_src (c : Dev nD) : W5 m ρ c (Proc.devRef .tc main_v1) = Cert.ReferenceIdeal.Read.val_main_v1 (F := Ideal) (m ((c : Thread nD τ).loc main_arg1)) := by
  show StableHlo.after hostOps1_2 (StableHlo.after hostOps1_1 (StableHlo.after hostOps1 (W2 m ρ c))) (Proc.devRef .tc main_v1) = _
  after_results_simp
  exact at2_src m ρ c

theorem at5_dst (c : Dev nD) : W5 m ρ c (Proc.devRef .tc main_v3) = Cert.ReferenceIdeal.Read.val_main_v3 (F := Ideal) (m ((c : Thread nD τ).loc main_arg1)) := by
  show StableHlo.after hostOps1_2 (StableHlo.after hostOps1_1 (StableHlo.after hostOps1 (W2 m ρ c))) (Proc.devRef .tc main_v3) = _
  after_results_simp
  exact at2_dst m ρ c

theorem at5_scale (c : Dev nD) : W5 m ρ c (Proc.devRef .tc main_v12) = Cert.ReferenceIdeal.Read.val_main_v41 (F := Ideal) (m ((c : Thread nD τ).loc main_arg1)) := by
  show StableHlo.after hostOps1_2 (StableHlo.after hostOps1_1 (StableHlo.after hostOps1 (W2 m ρ c))) (Proc.devRef .tc main_v12) = _
  after_results_simp
  exact at2_scale m ρ c

theorem at5_coef (c : Dev nD) : W5 m ρ c (Proc.devRef .tc main_v28) = Cert.ReferenceIdeal.Read.val_main_v27 (F := Ideal) (m ((c : Thread nD τ).loc main_arg1)) := by
  show StableHlo.after hostOps1_2 (StableHlo.after hostOps1_1 (StableHlo.after hostOps1 (W2 m ρ c))) (Proc.devRef .tc main_v28) = _
  after_results_simp
  exact at2_coef m ρ c

theorem at5_arg2 (c : Dev nD) : W5 m ρ c (Proc.devRef .tc main_arg2) = (m ((c : Thread nD τ).loc main_arg2)) := by
  show StableHlo.after hostOps1_2 (StableHlo.after hostOps1_1 (StableHlo.after hostOps1 (W2 m ρ c))) (Proc.devRef .tc main_arg2) = _
  after_results_simp
  exact at2_arg2 m ρ c

theorem at5_arg5 (c : Dev nD) : W5 m ρ c (Proc.devRef .tc main_arg5) = (m ((c : Thread nD τ).loc main_arg5)) := by
  show StableHlo.after hostOps1_2 (StableHlo.after hostOps1_1 (StableHlo.after hostOps1 (W2 m ρ c))) (Proc.devRef .tc main_arg5) = _
  after_results_simp
  exact at2_arg5 m ρ c

theorem at5_arg7 (c : Dev nD) : W5 m ρ c (Proc.devRef .tc main_arg7) = (m ((c : Thread nD τ).loc main_arg7)) := by
  show StableHlo.after hostOps1_2 (StableHlo.after hostOps1_1 (StableHlo.after hostOps1 (W2 m ρ c))) (Proc.devRef .tc main_arg7) = _
  after_results_simp
  exact at2_arg7 m ρ c

theorem at5_arg8 (c : Dev nD) : W5 m ρ c (Proc.devRef .tc main_arg8) = (m ((c : Thread nD τ).loc main_arg8)) := by
  show StableHlo.after hostOps1_2 (StableHlo.after hostOps1_1 (StableHlo.after hostOps1 (W2 m ρ c))) (Proc.devRef .tc main_arg8) = _
  after_results_simp
  exact at2_arg8 m ρ c

theorem at5_arg9 (c : Dev nD) : W5 m ρ c (Proc.devRef .tc main_arg9) = (m ((c : Thread nD τ).loc main_arg9)) := by
  show StableHlo.after hostOps1_2 (StableHlo.after hostOps1_1 (StableHlo.after hostOps1 (W2 m ρ c))) (Proc.devRef .tc main_arg9) = _
  after_results_simp
  exact at2_arg9 m ρ c

theorem at5_arg10 (c : Dev nD) : W5 m ρ c (Proc.devRef .tc main_arg10) = (m ((c : Thread nD τ).loc main_arg10)) := by
  show StableHlo.after hostOps1_2 (StableHlo.after hostOps1_1 (StableHlo.after hostOps1 (W2 m ρ c))) (Proc.devRef .tc main_arg10) = _
  after_results_simp
  exact at2_arg10 m ρ c

end Cert.KernelIdeal.Hand

end
-- ==== Proof.Layer2a.lean ====
/-
  What the second launch leaves, read as stages of the reference.

  Launch 1 finds the first layer's output, the second weights, the scale column and the second bias row.  Its first
  output is the product h W, the reference's dot_general; its second is the affine form h W * deg^-1 + b, the
  reference's self-loop term plus its bias term (the reference recomputes the scale column under another name: it is
  the same array).  Every other buffer is left as found.
-/
import proofs.«137481_j50019189129858_1_alg».proof.Proof.Gen.KernelIdeal.Frame
import proofs.«137481_j50019189129858_1_alg».proof.Proof.Gen.ReferenceIdeal.Read
import proofs.«137481_j50019189129858_1_alg».proof.Proof.LibDenseLayer
import proofs.«137481_j50019189129858_1_alg».proof.Proof.RefStages
import proofs.«137481_j50019189129858_1_alg».proof.Proof.Region1
import proofs.«137481_j50019189129858_1_alg».proof.Proof.Layer1b

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The launch's first output is the reference's dot_general of the layer's input and weights. -/
theorem at6_prod (c : Dev nD) : W6 m ρ c (Proc.devRef .tc main_v46_0) = Cert.ReferenceIdeal.Read.val_main_v49 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W6_arr m ρ c 4).trans ?_
  rw [L1.final_prod (V5 m ρ) c]
  show Cert.Dense.prod (W5 m ρ c (Proc.devRef .tc main_v44)) (W5 m ρ c (Proc.devRef .tc main_arg5)) = _
  rw [at5_h m ρ c, at5_arg5 m ρ c]
  exact (Cert.Dense.dotGeneral_eq_prod Cert.ReferenceIdeal.dot_S50000x128_S128x128_S50000x128_1_0_0_1_n_n rfl rfl rfl rfl rfl rfl _ _).symm

/-- The launch's second output is the reference's self-loop term plus its bias term: the product scaled per node by
    deg^-1, plus the bias row laid over the nodes. -/
theorem at6_affine (c : Dev nD) :
    W6 m ρ c (Proc.devRef .tc main_v46_1)
      = (addf (Cert.ReferenceIdeal.Read.val_main_v81 (F := Ideal) (m ((c : Thread nD τ).loc main_arg0)) (m ((c : Thread nD τ).loc main_arg1)) (m ((c : Thread nD τ).loc main_arg3)) (m ((c : Thread nD τ).loc main_arg4)) (m ((c : Thread nD τ).loc main_arg5))) (Cert.ReferenceIdeal.Read.val_main_v84 (F := Ideal) (m ((c : Thread nD τ).loc main_arg6))) : FVec Ideal Cert.ReferenceIdeal.S50000x128 .f32) := by
  refine (W6_arr m ρ c 5).trans ?_
  rw [L1.final_affine (V5 m ρ) c]
  show Cert.Dense.affine (W5 m ρ c (Proc.devRef .tc main_v44)) (W5 m ρ c (Proc.devRef .tc main_arg5))
      (W5 m ρ c (Proc.devRef .tc main_v12)) (W5 m ρ c (Proc.devRef .tc main_v45)) = _
  rw [at5_h m ρ c, at5_arg5 m ρ c, at5_scale m ρ c, at5_bias m ρ c, ← Cert.RefStages.scale2]
  exact Cert.Dense.affine_eq_host Cert.ReferenceIdeal.dot_S50000x128_S128x128_S50000x128_1_0_0_1_n_n rfl rfl rfl rfl rfl rfl _ _ _ _
    Cert.ReferenceIdeal.Gen.bcast_S50000x1_S50000x128_0_1 Cert.ReferenceIdeal.Gen.bcast_S1x128_S50000x128_0_1

theorem at6_src (c : Dev nD) : W6 m ρ c (Proc.devRef .tc main_v1) = Cert.ReferenceIdeal.Read.val_main_v1 (F := Ideal) (m ((c : Thread nD τ).loc main_arg1)) :=
  (W6_of_ne m ρ c main_v1 (by decide)).trans (at5_src m ρ c)

theorem at6_dst (c : Dev nD) : W6 m ρ c (Proc.devRef .tc main_v3) = Cert.ReferenceIdeal.Read.val_main_v3 (F := Ideal) (m ((c : Thread nD τ).loc main_arg1)) :=
  (W6_of_ne m ρ c main_v3 (by decide)).trans (at5_dst m ρ c)

/-- The scale column is an input of the launch: it is left as found. -/
theorem at6_scale (c : Dev nD) : W6 m ρ c (Proc.devRef .tc main_v12) = Cert.ReferenceIdeal.Read.val_main_v41 (F := Ideal) (m ((c : Thread nD τ).loc main_arg1)) :=
  (W6_arr m ρ c 2).trans (((dat1 (V5 m ρ) c).arrAt_in 2 rfl _).trans ((A_eq1 (V5 m ρ) c 2).trans (at5_scale m ρ c)))

theorem at6_coef (c : Dev nD) : W6 m ρ c (Proc.devRef .tc main_v28) = Cert.ReferenceIdeal.Read.val_main_v27 (F := Ideal) (m ((c : Thread nD τ).loc main_arg1)) :=
  (W6_of_ne m ρ c main_v28 (by decide)).trans (at5_coef m ρ c)

theorem at6_arg2 (c : Dev nD) : W6 m ρ c (Proc.devRef .tc main_arg2) = (m ((c : Thread nD τ).loc main_arg2)) :=
  (W6_of_ne m ρ c main_arg2 (by decide)).trans (at5_arg2 m ρ c)

theorem at6_arg7 (c : Dev nD) : W6 m ρ c (Proc.devRef .tc main_arg7) = (m ((c : Thread nD τ).loc main_arg7)) :=
  (W6_of_ne m ρ c main_arg7 (by decide)).trans (at5_arg7 m ρ c)

theorem at6_arg8 (c : Dev nD) : W6 m ρ c (Proc.devRef .tc main_arg8) = (m ((c : Thread nD τ).loc main_arg8)) :=
  (W6_of_ne m ρ c main_arg8 (by decide)).trans (at5_arg8 m ρ c)

theorem at6_arg9 (c : Dev nD) : W6 m ρ c (Proc.devRef .tc main_arg9) = (m ((c : Thread nD τ).loc main_arg9)) :=
  (W6_of_ne m ρ c main_arg9 (by decide)).trans (at5_arg9 m ρ c)

theorem at6_arg10 (c : Dev nD) : W6 m ρ c (Proc.devRef .tc main_arg10) = (m ((c : Thread nD τ).loc main_arg10)) :=
  (W6_of_ne m ρ c main_arg10 (by decide)).trans (at5_arg10 m ρ c)

end Cert.KernelIdeal.Hand

end
-- ==== Proof.Layer2b.lean ====
/-
  The host operations after the second launch, read as stages of the reference.

  They are the first layer's again: gather at the sources, weigh by the edge coefficients (which the reference
  recomputes under another name: the same array), scatter-add at the targets, add the launch's second output, clamp at
  zero, reshape the next bias.
-/
import proofs.«137481_j50019189129858_1_alg».proof.Proof.Gen.KernelIdeal.Frame
import proofs.«137481_j50019189129858_1_alg».proof.Proof.Gen.ReferenceIdeal.Read
import proofs.«137481_j50019189129858_1_alg».proof.Proof.LibDenseLayer
import proofs.«137481_j50019189129858_1_alg».proof.Proof.LibTRefCasts
import proofs.«137481_j50019189129858_1_alg».proof.Proof.RefStages
import proofs.«137481_j50019189129858_1_alg».proof.Proof.Layer2a

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The second layer's sum.  The kernel adds the neighbour sum to the launch's second output, (sum) + (self-loop
    term + bias); the reference adds the self-loop term and then the bias, ((sum) + self-loop term) + bias.  Sums of
    extended reals agree whatever the grouping.  The neighbour sum itself is the same gather, product and scatter-add of
    equal arrays on both sides: opening the reference's stages down to the arrays already matched shows it. -/
theorem at7_sum (c : Dev nD) : W7 m ρ c (Proc.devRef .tc main_v59) = Cert.ReferenceIdeal.Read.val_main_v85 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  show StableHlo.after hostOps2 (W6 m ρ c) (Proc.devRef .tc main_v59) = _
  after_results_simp
  rw [at6_prod m ρ c, at6_affine m ρ c, at6_src m ρ c, at6_dst m ρ c, at6_coef m ρ c, ← Cert.RefStages.coef2]
  rw [Cert.Dense.addf_assoc]
  unfold Cert.ReferenceIdeal.Read.val_main_v85 Cert.ReferenceIdeal.Read.val_main_v82
  unfold Cert.ReferenceIdeal.Read.val_main_v77 Cert.ReferenceIdeal.Read.val_main_v75
  unfold Cert.ReferenceIdeal.Read.val_main_cst_14 Cert.ReferenceIdeal.Read.val_main_v76
  unfold Cert.ReferenceIdeal.Read.val_main_v74 Cert.ReferenceIdeal.Read.val_main_v72
  unfold Cert.ReferenceIdeal.Read.val_main_v71 Cert.ReferenceIdeal.Read.val_main_v70
  unfold Cert.ReferenceIdeal.Read.val_main_v67 Cert.ReferenceIdeal.Read.val_main_v66
  unfold Cert.ReferenceIdeal.Read.val_main_c_12 Cert.ReferenceIdeal.Read.val_main_v69
  unfold Cert.ReferenceIdeal.Read.val_main_v68 Cert.ReferenceIdeal.Read.val_main_c_13
  unfold Cert.ReferenceIdeal.Read.val_main_v73
  rfl

/-- The second layer's output: the sum clamped at zero, as in the reference.  The clamp is a called function whose
    operations carry their values through casts between two spellings of one type; peeled off, both sides are the
    maximum of the same sum and the same array of zeros. -/
theorem at9_h (c : Dev nD) : W9 m ρ c (Proc.devRef .tc main_v60) = Cert.ReferenceIdeal.Read.val_main_v86 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  have hsum := at7_sum m ρ c
  show StableHlo.after hostOps2_2 (StableHlo.after hostOps2_1 (W7 m ρ c)) (Proc.devRef .tc main_v60) = _
  generalize W7 m ρ c = Vsum at hsum ⊢
  after_results_simp
  rw [hsum]
  unfold Cert.ReferenceIdeal.Read.val_main_v86 Cert.ReferenceIdeal.Read.val_main_call1_v0
  unfold Cert.ReferenceIdeal.Read.val_main_call1_cst
  rw [Cert.Casts.ofBuf_toBuf, Cert.Casts.ofBuf_toBuf]
  refine eq_of_heq ((Cert.Casts.toBuf_heq _ _).trans (heq_of_eq ?_))
  exact congrArg₂ maximumf (eq_of_heq (Cert.Casts.ofBuf_heq _ _)) rfl

/-- The next layer's bias as a row: the kernel's reshape is the reference's broadcast_in_dim. -/
theorem at9_bias (c : Dev nD) : W9 m ρ c (Proc.devRef .tc main_v61) = Cert.ReferenceIdeal.Read.val_main_v121 (F := Ideal) (m ((c : Thread nD τ).loc main_arg8)) := by
  show StableHlo.after hostOps2_2 (StableHlo.after hostOps2_1 (StableHlo.after hostOps2 (W6 m ρ c))) (Proc.devRef .tc main_v61) = _
  after_results_simp
  rw [at6_arg8 m ρ c]
  exact Cert.Dense.row_cast_eq_bcast _ _ Cert.ReferenceIdeal.Gen.bcast_S128_S1x128_1

theorem at9_src (c : Dev nD) : W9 m ρ c (Proc.devRef .tc main_v1) = Cert.ReferenceIdeal.Read.val_main_v1 (F := Ideal) (m ((c : Thread nD τ).loc main_arg1)) := by
  show StableHlo.after hostOps2_2 (StableHlo.after hostOps2_1 (StableHlo.after hostOps2 (W6 m ρ c))) (Proc.devRef .tc main_v1) = _
  after_results_simp
  exact at6_src m ρ c

theorem at9_dst (c : Dev nD) : W9 m ρ c (Proc.devRef .tc main_v3) = Cert.ReferenceIdeal.Read.val_main_v3 (F := Ideal) (m ((c : Thread nD τ).loc main_arg1)) := by
  show StableHlo.after hostOps2_2 (StableHlo.after hostOps2_1 (StableHlo.after hostOps2 (W6 m ρ c))) (Proc.devRef .tc main_v3) = _
  after_results_simp
  exact at6_dst m ρ c

theorem at9_scale (c : Dev nD) : W9 m ρ c (Proc.devRef .tc main_v12) = Cert.ReferenceIdeal.Read.val_main_v41 (F := Ideal) (m ((c : Thread nD τ).loc main_arg1)) := by
  show StableHlo.after hostOps2_2 (StableHlo.after hostOps2_1 (StableHlo.after hostOps2 (W6 m ρ c))) (Proc.devRef .tc main_v12) = _
  after_results_simp
  exact at6_scale m ρ c

theorem at9_coef (c : Dev nD) : W9 m ρ c (Proc.devRef .tc main_v28) = Cert.ReferenceIdeal.Read.val_main_v27 (F := Ideal) (m ((c : Thread nD τ).loc main_arg1)) := by
  show StableHlo.after hostOps2_2 (StableHlo.after hostOps2_1 (StableHlo.after hostOps2 (W6 m ρ c))) (Proc.devRef .tc main_v28) = _
  after_results_simp
  exact at6_coef m ρ c

theorem at9_arg2 (c : Dev nD) : W9 m ρ c (Proc.devRef .tc main_arg2) = (m ((c : Thread nD τ).loc main_arg2)) := by
  show StableHlo.after hostOps2_2 (StableHlo.after hostOps2_1 (StableHlo.after hostOps2 (W6 m ρ c))) (Proc.devRef .tc main_arg2) = _
  after_results_simp
  exact at6_arg2 m ρ c

theorem at9_arg7 (c : Dev nD) : W9 m ρ c (Proc.devRef .tc main_arg7) = (m ((c : Thread nD τ).loc main_arg7)) := by
  show StableHlo.after hostOps2_2 (StableHlo.after hostOps2_1 (StableHlo.after hostOps2 (W6 m ρ c))) (Proc.devRef .tc main_arg7) = _
  after_results_simp
  exact at6_arg7 m ρ c

theorem at9_arg9 (c : Dev nD) : W9 m ρ c (Proc.devRef .tc main_arg9) = (m ((c : Thread nD τ).loc main_arg9)) := by
  show StableHlo.after hostOps2_2 (StableHlo.after hostOps2_1 (StableHlo.after hostOps2 (W6 m ρ c))) (Proc.devRef .tc main_arg9) = _
  after_results_simp
  exact at6_arg9 m ρ c

theorem at9_arg10 (c : Dev nD) : W9 m ρ c (Proc.devRef .tc main_arg10) = (m ((c : Thread nD τ).loc main_arg10)) := by
  show StableHlo.after hostOps2_2 (StableHlo.after hostOps2_1 (StableHlo.after hostOps2 (W6 m ρ c))) (Proc.devRef .tc main_arg10) = _
  after_results_simp
  exact at6_arg10 m ρ c

end Cert.KernelIdeal.Hand

end
-- ==== Proof.Layer3a.lean ====
/-
  What the third launch leaves, read as stages of the reference.

  Launch 2 finds the second layer's output, the third weights, the scale column and the third bias row.  Its first
  output is the product h W, the reference's dot_general; its second is the affine form h W * deg^-1 + b, the
  reference's self-loop term plus its bias term.  Every other buffer is left as found.
-/
import proofs.«137481_j50019189129858_1_alg».proof.Proof.Gen.KernelIdeal.Frame
import proofs.«137481_j50019189129858_1_alg».proof.Proof.Gen.ReferenceIdeal.Read
import proofs.«137481_j50019189129858_1_alg».proof.Proof.LibDenseLayer
import proofs.«137481_j50019189129858_1_alg».proof.Proof.RefStages
import proofs.«137481_j50019189129858_1_alg».proof.Proof.Region2
import proofs.«137481_j50019189129858_1_alg».proof.Proof.Layer2b

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The launch's first output is the reference's dot_general of the layer's input and weights. -/
theorem at10_prod (c : Dev nD) : W10 m ρ c (Proc.devRef .tc main_v62_0) = Cert.ReferenceIdeal.Read.val_main_v87 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W10_arr m ρ c 4).trans ?_
  rw [L2.final_prod (V9 m ρ) c]
  show Cert.Dense.prod (W9 m ρ c (Proc.devRef .tc main_v60)) (W9 m ρ c (Proc.devRef .tc main_arg7)) = _
  rw [at9_h m ρ c, at9_arg7 m ρ c]
  exact (Cert.Dense.dotGeneral_eq_prod Cert.ReferenceIdeal.dot_S50000x128_S128x128_S50000x128_1_0_0_1_n_n rfl rfl rfl rfl rfl rfl _ _).symm

/-- The launch's second output is the reference's self-loop term plus its bias term: the product scaled per node by
    deg^-1, plus the bias row laid over the nodes. -/
theorem at10_affine (c : Dev nD) :
    W10 m ρ c (Proc.devRef .tc main_v62_1)
      = (addf (Cert.ReferenceIdeal.Read.val_main_v119 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) (Cert.ReferenceIdeal.Read.val_main_v122 (F := Ideal) (m ((c : Thread nD τ).loc main_arg8))) : FVec Ideal Cert.ReferenceIdeal.S50000x128 .f32) := by
  refine (W10_arr m ρ c 5).trans ?_
  rw [L2.final_affine (V9 m ρ) c]
  show Cert.Dense.affine (W9 m ρ c (Proc.devRef .tc main_v60)) (W9 m ρ c (Proc.devRef .tc main_arg7))
      (W9 m ρ c (Proc.devRef .tc main_v12)) (W9 m ρ c (Proc.devRef .tc main_v61)) = _
  rw [at9_h m ρ c, at9_arg7 m ρ c, at9_scale m ρ c, at9_bias m ρ c, ← Cert.RefStages.scale3]
  exact Cert.Dense.affine_eq_host Cert.ReferenceIdeal.dot_S50000x128_S128x128_S50000x128_1_0_0_1_n_n rfl rfl rfl rfl rfl rfl _ _ _ _
    Cert.ReferenceIdeal.Gen.bcast_S50000x1_S50000x128_0_1 Cert.ReferenceIdeal.Gen.bcast_S1x128_S50000x128_0_1

theorem at10_src (c : Dev nD) : W10 m ρ c (Proc.devRef .tc main_v1) = Cert.ReferenceIdeal.Read.val_main_v1 (F := Ideal) (m ((c : Thread nD τ).loc main_arg1)) :=
  (W10_of_ne m ρ c main_v1 (by decide)).trans (at9_src m ρ c)

theorem at10_dst (c : Dev nD) : W10 m ρ c (Proc.devRef .tc main_v3) = Cert.ReferenceIdeal.Read.val_main_v3 (F := Ideal) (m ((c : Thread nD τ).loc main_arg1)) :=
  (W10_of_ne m ρ c main_v3 (by decide)).trans (at9_dst m ρ c)

theorem at10_coef (c : Dev nD) : W10 m ρ c (Proc.devRef .tc main_v28) = Cert.ReferenceIdeal.Read.val_main_v27 (F := Ideal) (m ((c : Thread nD τ).loc main_arg1)) :=
  (W10_of_ne m ρ c main_v28 (by decide)).trans (at9_coef m ρ c)

theorem at10_arg2 (c : Dev nD) : W10 m ρ c (Proc.devRef .tc main_arg2) = (m ((c : Thread nD τ).loc main_arg2)) :=
  (W10_of_ne m ρ c main_arg2 (by decide)).trans (at9_arg2 m ρ c)

theorem at10_arg9 (c : Dev nD) : W10 m ρ c (Proc.devRef .tc main_arg9) = (m ((c : Thread nD τ).loc main_arg9)) :=
  (W10_of_ne m ρ c main_arg9 (by decide)).trans (at9_arg9 m ρ c)

theorem at10_arg10 (c : Dev nD) : W10 m ρ c (Proc.devRef .tc main_arg10) = (m ((c : Thread nD τ).loc main_arg10)) :=
  (W10_of_ne m ρ c main_arg10 (by decide)).trans (at9_arg10 m ρ c)

end Cert.KernelIdeal.Hand

end
-- ==== Proof.Layer3b.lean ====
/-
  The host operations after the third launch, the last launch, and the result, read as stages of the reference.

  The host operations form the third layer's output (no clamp), add the nodes' rows into their graphs' rows (a
  scatter-add by the batch vector) and reshape the readout bias.  The last launch multiplies the pooled features by
  the readout weights and adds the bias: the reference's last three operations.
-/
import proofs.«137481_j50019189129858_1_alg».proof.Proof.Gen.KernelIdeal.Frame
import proofs.«137481_j50019189129858_1_alg».proof.Proof.Gen.ReferenceIdeal.Read
import proofs.«137481_j50019189129858_1_alg».proof.Proof.LibDenseLayer
import proofs.«137481_j50019189129858_1_alg».proof.Proof.RefStages
import proofs.«137481_j50019189129858_1_alg».proof.Proof.Region3
import proofs.«137481_j50019189129858_1_alg».proof.Proof.Layer3a

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The pooled features.  As in the earlier layers the kernel's (sum) + (self-loop term + bias) is the reference's
    ((sum) + self-loop term) + bias; the neighbour sum and the pooling are the same gathers and scatter-adds of equal
    arrays on both sides: opening the reference's stages down to the arrays already matched shows it. -/
theorem at11_pooled (c : Dev nD) : W11 m ρ c (Proc.devRef .tc main_v78) = Cert.ReferenceIdeal.Read.val_main_v126 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps3 (W10 m ρ c) (Proc.devRef .tc main_v78) = _
  after_results_simp
  rw [at10_prod m ρ c, at10_affine m ρ c, at10_src m ρ c, at10_dst m ρ c, at10_coef m ρ c, ← Cert.RefStages.coef3,
    at10_arg2 m ρ c]
  rw [Cert.Dense.addf_assoc]
  unfold Cert.ReferenceIdeal.Read.val_main_v126 Cert.ReferenceIdeal.Read.val_main_v124
  unfold Cert.ReferenceIdeal.Read.val_main_cst_22 Cert.ReferenceIdeal.Read.val_main_v125
  unfold Cert.ReferenceIdeal.Read.val_main_v123 Cert.ReferenceIdeal.Read.val_main_v120
  unfold Cert.ReferenceIdeal.Read.val_main_v115 Cert.ReferenceIdeal.Read.val_main_v113
  unfold Cert.ReferenceIdeal.Read.val_main_cst_21 Cert.ReferenceIdeal.Read.val_main_v114
  unfold Cert.ReferenceIdeal.Read.val_main_v112 Cert.ReferenceIdeal.Read.val_main_v110
  unfold Cert.ReferenceIdeal.Read.val_main_v109 Cert.ReferenceIdeal.Read.val_main_v108
  unfold Cert.ReferenceIdeal.Read.val_main_v105 Cert.ReferenceIdeal.Read.val_main_v104
  unfold Cert.ReferenceIdeal.Read.val_main_c_19 Cert.ReferenceIdeal.Read.val_main_v107
  unfold Cert.ReferenceIdeal.Read.val_main_v106 Cert.ReferenceIdeal.Read.val_main_c_20
  unfold Cert.ReferenceIdeal.Read.val_main_v111
  rfl

/-- The readout bias as a [1, 1] array: the kernel's reshape is the reference's broadcast_in_dim. -/
theorem at11_bias (c : Dev nD) : W11 m ρ c (Proc.devRef .tc main_v79) = Cert.ReferenceIdeal.Read.val_main_v128 (F := Ideal) (m ((c : Thread nD τ).loc main_arg10)) := by
  show StableHlo.after hostOps3 (W10 m ρ c) (Proc.devRef .tc main_v79) = _
  after_results_simp
  rw [at10_arg10 m ρ c]
  exact Cert.Dense.row_cast_eq_bcast _ _ Cert.ReferenceIdeal.Gen.bcast_S1_S1x1_1

theorem at11_arg9 (c : Dev nD) : W11 m ρ c (Proc.devRef .tc main_arg9) = (m ((c : Thread nD τ).loc main_arg9)) := by
  show StableHlo.after hostOps3 (W10 m ρ c) (Proc.devRef .tc main_arg9) = _
  after_results_simp
  exact at10_arg9 m ρ c

/-- The kernel's result array is the reference's result as a function of the eleven arguments: the last launch's
    product plus bias is the reference's dot_general plus its bias laid over the graphs. -/
theorem result_eq (c : Dev nD) :
    W12 m ρ c (Proc.devRef .tc main_v80) = Cert.ReferenceIdeal.Read.val_main_v130 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W12_arr m ρ c 3).trans ?_
  rw [L3.final_biased (V11 m ρ) c]
  show Cert.Dense.biased (W11 m ρ c (Proc.devRef .tc main_v78)) (W11 m ρ c (Proc.devRef .tc main_arg9))
      (W11 m ρ c (Proc.devRef .tc main_v79)) = _
  rw [at11_pooled m ρ c, at11_arg9 m ρ c, at11_bias m ρ c]
  exact Cert.Dense.biased_eq_host Cert.ReferenceIdeal.dot_S512x128_S128x1_S512x1_1_0_0_1_n_n rfl rfl rfl rfl rfl rfl _ _ _ Cert.ReferenceIdeal.Gen.bcast_S1x1_S512x1_0_1

end Cert.KernelIdeal.Hand

end
-- ==== Proof.lean ====
/-
  The certificate of a three-layer graph convolution network with sum pooling and a linear readout, kernel against
  reference, on the extended reals.

  Both programs compute, for node features x, an edge list, a batch vector and the layers' weights and biases,

      deg = 1 + (number of edges into the node),   s = deg^-1,   c(e) = deg^-1/2(src e) * deg^-1/2(dst e),
      layer(h, W, b) = [sum over edges e into the node of c(e) * (h W)(src e)] + (h W) * s + b,
      out = pool(layer(relu(layer(relu(layer(x, W1, b1)), W2, b2)), W3, b3)) Wo + bo.

  The kernel computes h W and (h W) * s + b in a launch tiled by rows (the operands rounded to bfloat16 on the way into
  the matrix unit, which at the ideal instance is the identity), and adds the neighbour sum to the latter; the
  reference adds the neighbour sum, the self-loop term and the bias in that order.  A row of a product reads the same
  row of its left operand only, so the tiles are blocks of one function of the whole arrays (Region0-3); the two
  groupings of the three summands agree because addition of extended reals is associative, with no finiteness
  needed; the gathers, scatter-adds and the degree computation are the same operations of equal arrays on both sides,
  and the kernel's reshapes of a vector into a column or a row are the reference's broadcast_in_dim (Boundary1,
  RefStages, Layer1a-3b).  So the kernel's result array is the reference's result, stage by stage (Layer3b `result_eq`).

  The three frames: the two kernel programs' are the generated frame certificates; the reference has no launch and its
  frame is its generated run with the result dropped.  The idealization rewrote nothing, so `preserves` is trivial.
-/
import proofs.«137481_j50019189129858_1_alg».proof.Defs
import proofs.«137481_j50019189129858_1_alg».proof.Proof.Gen.Kernel
import proofs.«137481_j50019189129858_1_alg».proof.Proof.Gen.Kernel.Frame
import proofs.«137481_j50019189129858_1_alg».proof.Proof.Gen.KernelIdeal
import proofs.«137481_j50019189129858_1_alg».proof.Proof.Gen.KernelIdeal.Frame
import proofs.«137481_j50019189129858_1_alg».proof.Proof.Gen.ReferenceIdeal
import proofs.«137481_j50019189129858_1_alg».proof.Proof.Gen.Pre_finite_inputs
import proofs.«137481_j50019189129858_1_alg».proof.Proof.Gen.ReferenceIdeal.Run
import proofs.«137481_j50019189129858_1_alg».proof.Proof.Gen.ReferenceIdeal.Read
import proofs.«137481_j50019189129858_1_alg».proof.Proof.KernelRun
import proofs.«137481_j50019189129858_1_alg».proof.Proof.Layer3b

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no launch: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both idealized programs run, and end with the same result: the kernel's
    result array, read off its run, is the reference's last stage of the (agreeing) arguments. -/
theorem algebraic : Cert.algebraic_KernelIdeal_ReferenceIdeal := by
  intro m ρ m' ρ' _ hagree
  refine ⟨fun c => Cert.KernelIdeal.Gen.W12 m ρ c (Proc.devRef .tc Cert.KernelIdeal.main_v80), Cert.KernelIdeal.Hand.run_result m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v130_eq m' c, h0, h1, h2, h3, h4, h5, h6, h7, h8, h9, h10]
  exact (Cert.KernelIdeal.Hand.result_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
